-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x1x250 : Shape := ⟨4, ![256, 512, 1, 250]⟩
abbrev S2x50 : Shape := ⟨2, ![2, 50]⟩
abbrev S2 : Shape := ⟨1, ![2]⟩
abbrev S50x2 : Shape := ⟨2, ![50, 2]⟩
abbrev S50 : Shape := ⟨1, ![50]⟩
abbrev S1x25 : Shape := ⟨2, ![1, 25]⟩
abbrev S1 : Shape := ⟨1, ![1]⟩
abbrev S25x1 : Shape := ⟨2, ![25, 1]⟩
abbrev S25 : Shape := ⟨1, ![25]⟩
abbrev S_ : Shape := ⟨0, ![]⟩

class Facts : Prop where
  bcast_S_S256x512x1x250 : S_.BroadcastsInDim S256x512x1x250 (![] : Fin 0 → Fin S256x512x1x250.rank)
  reducesTo_S256x512x1x250_S_d0_1_2_3 : S256x512x1x250.ReducesTo [0, 1, 2, 3] S_
  h_S_ : 0 < S_.numel
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_
  bcast_S_S50x2 : S_.BroadcastsInDim S50x2 (![] : Fin 0 → Fin S50x2.rank)
  reducesTo_S50x2_S_d0_1 : S50x2.ReducesTo [0, 1] S_
  bcast_S_S50 : S_.BroadcastsInDim S50 (![] : Fin 0 → Fin S50.rank)
  reducesTo_S50_S_d0 : S50.ReducesTo [0] S_
  bcast_S_S1x25 : S_.BroadcastsInDim S1x25 (![] : Fin 0 → Fin S1x25.rank)
  reducesTo_S1x25_S_d0_1 : S1x25.ReducesTo [0, 1] S_
  bcast_S_S1 : S_.BroadcastsInDim S1 (![] : Fin 0 → Fin S1.rank)
  reducesTo_S1_S_d0 : S1.ReducesTo [0] S_
  bcast_S_S25x1 : S_.BroadcastsInDim S25x1 (![] : Fin 0 → Fin S25x1.rank)
  reducesTo_S25x1_S_d0_1 : S25x1.ReducesTo [0, 1] S_
  bcast_S_S25 : S_.BroadcastsInDim S25 (![] : Fin 0 → Fin S25.rank)
  reducesTo_S25_S_d0 : S25.ReducesTo [0] S_

variable [Facts]

def fn_part2 {F : FTy → Type} [FloatOps F] (main_arg7 : FVec F S25x1 .f32) (main_arg8 : FVec F S25 .f32) (main_v33 : IVec S_ 1) : IVec S_ 1 :=
  let main_v34 : FVec F S25x1 .f32 := Host.absf main_arg7
  let main_cst_12 : FVec F S_ .f32 := constant S_ .f32 0x7F800000#32
  let main_v35 : FVec F S25x1 .f32 := broadcastInDim S25x1 ![] bcast_S_S25x1 main_cst_12
  let main_v36 : IVec S25x1 1 := cmpf .olt main_v34 main_v35
  let main_c_13 : IVec S_ 1 := constantI S_ 1 1#1
  let main_v37 : IVec S_ 1 := (fun x v => Host.reduce IntOp.andi x v reducesTo_S25x1_S_d0_1 h_S_) main_v36 main_c_13
  let main_v38 : IVec S_ 1 := andi main_v33 main_v37
  let main_v39 : FVec F S25 .f32 := Host.absf main_arg8
  let main_cst_14 : FVec F S_ .f32 := constant S_ .f32 0x7F800000#32
  let main_v40 : FVec F S25 .f32 := broadcastInDim S25 ![] bcast_S_S25 main_cst_14
  let main_v41 : IVec S25 1 := cmpf .olt main_v39 main_v40
  let main_c_15 : IVec S_ 1 := constantI S_ 1 1#1
  let main_v42 : IVec S_ 1 := (fun x v => Host.reduce IntOp.andi x v reducesTo_S25_S_d0 h_S_) main_v41 main_c_15
  let main_v43 : IVec S_ 1 := andi main_v38 main_v42
  main_v43

def fn_part1 {F : FTy → Type} [FloatOps F] (main_arg4 : FVec F S50 .f32) (main_arg5 : FVec F S1x25 .f32) (main_arg6 : FVec F S1 .f32) (main_arg7 : FVec F S25x1 .f32) (main_arg8 : FVec F S25 .f32) (main_v13 : IVec S_ 1) (main_v16 : IVec S50x2 1) : IVec S_ 1 :=
  let main_c_5 : IVec S_ 1 := constantI S_ 1 1#1
  let main_v17 : IVec S_ 1 := (fun x v => Host.reduce IntOp.andi x v reducesTo_S50x2_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S1x25 .f32 := Host.absf main_arg5
  let main_cst_8 : FVec F S_ .f32 := constant S_ .f32 0x7F800000#32
  let main_v25 : FVec F S1x25 .f32 := broadcastInDim S1x25 ![] bcast_S_S1x25 main_cst_8
  let main_v26 : IVec S1x25 1 := cmpf .olt main_v24 main_v25
  let main_c_9 : IVec S_ 1 := constantI S_ 1 1#1
  let main_v27 : IVec S_ 1 := (fun x v => Host.reduce IntOp.andi x v reducesTo_S1x25_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S256x512x1x250 .f32) (main_arg1 : FVec F S2x50 .f32) (main_arg2 : FVec F S2 .f32) (main_arg3 : FVec F S50x2 .f32) (main_arg4 : FVec F S50 .f32) (main_arg5 : FVec F S1x25 .f32) (main_arg6 : FVec F S1 .f32) (main_arg7 : FVec F S25x1 .f32) (main_arg8 : FVec F S25 .f32) : IVec S_ 1 :=
  let main_v0 : FVec F S256x512x1x250 .f32 := Host.absf main_arg0
  let main_cst : FVec F S_ .f32 := constant S_ .f32 0x7F800000#32
  let main_v1 : FVec F S256x512x1x250 .f32 := broadcastInDim S256x512x1x250 ![] bcast_S_S256x512x1x250 main_cst
  let main_v2 : IVec S256x512x1x250 1 := cmpf .olt main_v0 main_v1
  let main_c : IVec S_ 1 := constantI S_ 1 1#1
  let main_v3 : IVec S_ 1 := (fun x v => Host.reduce IntOp.andi x v reducesTo_S256x512x1x250_S_d0_1_2_3 h_S_) main_v2 main_c
  let main_v4 : FVec F S2x50 .f32 := Host.absf main_arg1
  let main_cst_0 : FVec F S_ .f32 := constant S_ .f32 0x7F800000#32
  let main_v5 : FVec F S2x50 .f32 := broadcastInDim S2x50 ![] bcast_S_S2x50 main_cst_0
  let main_v6 : IVec S2x50 1 := cmpf .olt main_v4 main_v5
  let main_c_1 : IVec S_ 1 := constantI S_ 1 1#1
  let main_v7 : IVec S_ 1 := (fun x v => Host.reduce IntOp.andi x v reducesTo_S2x50_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S50x2 .f32 := Host.absf main_arg3
  let main_cst_4 : FVec F S_ .f32 := constant S_ .f32 0x7F800000#32
  let main_v15 : FVec F S50x2 .f32 := broadcastInDim S50x2 ![] bcast_S_S50x2 main_cst_4
  let main_v16 : IVec S50x2 1 := cmpf .olt main_v14 main_v15
  fn_part1 (F := F) main_arg4 main_arg5 main_arg6 main_arg7 main_arg8 main_v13 main_v16
-- ==== Kernel.lean ====
abbrev S256x512x1x250 : Shape := ⟨4, ![256, 512, 1, 250]⟩
abbrev S2x50 : Shape := ⟨2, ![2, 50]⟩
abbrev S2 : Shape := ⟨1, ![2]⟩
abbrev S50x2 : Shape := ⟨2, ![50, 2]⟩
abbrev S50 : Shape := ⟨1, ![50]⟩
abbrev S1x25 : Shape := ⟨2, ![1, 25]⟩
abbrev S1 : Shape := ⟨1, ![1]⟩
abbrev S25x1 : Shape := ⟨2, ![25, 1]⟩
abbrev S25 : Shape := ⟨1, ![25]⟩
abbrev S256x512x250 : Shape := ⟨3, ![256, 512, 250]⟩
abbrev S16x512x250 : Shape := ⟨3, ![16, 512, 250]⟩
abbrev S16x250 : Shape := ⟨2, ![16, 250]⟩
abbrev S16x50 : Shape := ⟨2, ![16, 50]⟩
abbrev S16x1x50 : Shape := ⟨3, ![16, 1, 50]⟩
abbrev S16x9x50 : Shape := ⟨3, ![16, 9, 50]⟩
abbrev S16x9x1x50 : Shape := ⟨4, ![16, 9, 1, 50]⟩
abbrev S1x1x2x50 : Shape := ⟨4, ![1, 1, 2, 50]⟩
abbrev S16x9x2x50 : Shape := ⟨4, ![16, 9, 2, 50]⟩
abbrev S16x9x2 : Shape := ⟨3, ![16, 9, 2]⟩
abbrev S1x1x2 : Shape := ⟨3, ![1, 1, 2]⟩
abbrev S16x9x1x2 : Shape := ⟨4, ![16, 9, 1, 2]⟩
abbrev S1x1x50x2 : Shape := ⟨4, ![1, 1, 50, 2]⟩
abbrev S16x9x50x2 : Shape := ⟨4, ![16, 9, 50, 2]⟩
abbrev S1x1x50 : Shape := ⟨3, ![1, 1, 50]⟩
abbrev S16x25 : Shape := ⟨2, ![16, 25]⟩
abbrev S16x1x25 : Shape := ⟨3, ![16, 1, 25]⟩
abbrev S1x1x25 : Shape := ⟨3, ![1, 1, 25]⟩
abbrev S16x1 : Shape := ⟨2, ![16, 1]⟩
abbrev S1x1 : Shape := ⟨2, ![1, 1]⟩
abbrev S16x1x1 : Shape := ⟨3, ![16, 1, 1]⟩
abbrev S1x25x1 : Shape := ⟨3, ![1, 25, 1]⟩
abbrev S16x25x1 : Shape := ⟨3, ![16, 25, 1]⟩
abbrev S16x9x25 : Shape := ⟨3, ![16, 9, 25]⟩
abbrev S16x8x25 : Shape := ⟨3, ![16, 8, 25]⟩
abbrev S16x10x25 : Shape := ⟨3, ![16, 10, 25]⟩
abbrev S16x1x250 : Shape := ⟨3, ![16, 1, 250]⟩

abbrev nBuf : Space → Nat
  | .hbm => 12
  | .vmem => 12
  | .smem => 0
  | _ => 0

abbrev bufTy : (tb : Table) → Fin (tcTables nBuf tb) → BufTy
  | .hbm, ⟨0, _⟩ => ⟨S256x512x1x250, .f32⟩
  | .hbm, ⟨1, _⟩ => ⟨S2x50, .f32⟩
  | .hbm, ⟨2, _⟩ => ⟨S2, .f32⟩
  | .hbm, ⟨3, _⟩ => ⟨S50x2, .f32⟩
  | .hbm, ⟨4, _⟩ => ⟨S50, .f32⟩
  | .hbm, ⟨5, _⟩ => ⟨S1x25, .f32⟩
  | .hbm, ⟨6, _⟩ => ⟨S1, .f32⟩
  | .hbm, ⟨7, _⟩ => ⟨S25x1, .f32⟩
  | .hbm, ⟨8, _⟩ => ⟨S25, .f32⟩
  | .hbm, ⟨9, _⟩ => ⟨S256x512x250, .f32⟩
  | .hbm, ⟨10, _⟩ => ⟨S256x512x250, .f32⟩
  | .hbm, ⟨11, _⟩ => ⟨S256x512x1x250, .f32⟩
  | .local _ .vmem, ⟨0, _⟩ => ⟨S16x512x250, .f32⟩
  | .local _ .vmem, ⟨1, _⟩ => ⟨S16x512x250, .f32⟩
  | .local _ .vmem, ⟨2, _⟩ => ⟨S2x50, .f32⟩
  | .local _ .vmem, ⟨3, _⟩ => ⟨S2, .f32⟩
  | .local _ .vmem, ⟨4, _⟩ => ⟨S50x2, .f32⟩
  | .local _ .vmem, ⟨5, _⟩ => ⟨S50, .f32⟩
  | .local _ .vmem, ⟨6, _⟩ => ⟨S1x25, .f32⟩
  | .local _ .vmem, ⟨7, _⟩ => ⟨S1, .f32⟩
  | .local _ .vmem, ⟨8, _⟩ => ⟨S25x1, .f32⟩
  | .local _ .vmem, ⟨9, _⟩ => ⟨S25, .f32⟩
  | .local _ .vmem, ⟨10, _⟩ => ⟨S16x512x250, .f32⟩
  | .local _ .vmem, ⟨11, _⟩ => ⟨S16x512x250, .f32⟩
  | _, _ => ⟨S256x512x1x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S25x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512x250 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256x512x1x250_S256x512x250 : S256x512x1x250.ShapeCasts S256x512x250
  inb_S16x512x250_S16x512x250_0_0_0 : ∀ a, (![0, 0, 0] : Fin 3 → Nat) a + S16x512x250.size a ≤ S16x512x250.size a
  h_S16x512x250 : 0 < S16x512x250.numel
  shapeCasts_S16x512x250_S16x512x250 : S16x512x250.ShapeCasts S16x512x250
  reduces_S16x512x250_S16x250 : S16x512x250.Reduces [1] S16x250
  inb_S2x50_S2x50_0_0 : ∀ a, (![0, 0] : Fin 2 → Nat) a + S2x50.size a ≤ S2x50.size a
  h_S2x50 : 0 < S2x50.numel
  inb_S2_S2_0 : ∀ a, (![0] : Fin 1 → Nat) a + S2.size a ≤ S2.size a
  h_S2 : 0 < S2.numel
  inb_S50x2_S50x2_0_0 : ∀ a, (![0, 0] : Fin 2 → Nat) a + S50x2.size a ≤ S50x2.size a
  h_S50x2 : 0 < S50x2.numel
  inb_S50_S50_0 : ∀ a, (![0] : Fin 1 → Nat) a + S50.size a ≤ S50.size a
  h_S50 : 0 < S50.numel
  inb_S1x25_S1x25_0_0 : ∀ a, (![0, 0] : Fin 2 → Nat) a + S1x25.size a ≤ S1x25.size a
  h_S1x25 : 0 < S1x25.numel
  inb_S1_S1_0 : ∀ a, (![0] : Fin 1 → Nat) a + S1.size a ≤ S1.size a
  h_S1 : 0 < S1.numel
  inb_S25x1_S25x1_0_0 : ∀ a, (![0, 0] : Fin 2 → Nat) a + S25x1.size a ≤ S25x1.size a
  h_S25x1 : 0 < S25x1.numel
  inb_S25_S25_0 : ∀ a, (![0] : Fin 1 → Nat) a + S25.size a ≤ S25.size a
  h_S25 : 0 < S25.numel
  slices_S16x250_o0_0_S16x50 : S16x250.Slices ![0, 0] S16x50
  slices_S16x250_o0_25_S16x50 : S16x250.Slices ![0, 25] S16x50
  slices_S16x250_o0_50_S16x50 : S16x250.Slices ![0, 50] S16x50
  slices_S16x250_o0_75_S16x50 : S16x250.Slices ![0, 75] S16x50
  slices_S16x250_o0_100_S16x50 : S16x250.Slices ![0, 100] S16x50
  slices_S16x250_o0_125_S16x50 : S16x250.Slices ![0, 125] S16x50
  slices_S16x250_o0_150_S16x50 : S16x250.Slices ![0, 150] S16x50
  slices_S16x250_o0_175_S16x50 : S16x250.Slices ![0, 175] S16x50
  slices_S16x250_o0_200_S16x50 : S16x250.Slices ![0, 200] S16x50
  shapeCasts_S16x50_S16x1x50 : S16x50.ShapeCasts S16x1x50
  concatenates_S16x1x50_S16x1x50_S16x1x50_S16x1x50_S16x1x50_S16x1x50_S16x1x50_S16x1x50_S16x1x50_S16x9x50_d1 : Shape.Concatenates [S16x1x50, S16x1x50, S16x1x50, S16x1x50, S16x1x50, S16x1x50, S16x1x50, S16x1x50, S16x1x50] S16x9x50 1
  shapeCasts_S16x9x50_S16x9x1x50 : S16x9x50.ShapeCasts S16x9x1x50
  shapeCasts_S2x50_S1x1x2x50 : S2x50.ShapeCasts S1x1x2x50
  broadcasts_S16x9x1x50_S16x9x2x50 : S16x9x1x50.Broadcasts S16x9x2x50
  broadcasts_S1x1x2x50_S16x9x2x50 : S1x1x2x50.Broadcasts S16x9x2x50
  reduces_S16x9x2x50_S16x9x2 : S16x9x2x50.Reduces [3] S16x9x2
  shapeCasts_S2_S1x1x2 : S2.ShapeCasts S1x1x2
  broadcasts_S1x1x2_S16x9x2 : S1x1x2.Broadcasts S16x9x2
  shapeCasts_S16x9x2_S16x9x1x2 : S16x9x2.ShapeCasts S16x9x1x2
  shapeCasts_S50x2_S1x1x50x2 : S50x2.ShapeCasts S1x1x50x2
  broadcasts_S16x9x1x2_S16x9x50x2 : S16x9x1x2.Broadcasts S16x9x50x2
  broadcasts_S1x1x50x2_S16x9x50x2 : S1x1x50x2.Broadcasts S16x9x50x2
  reduces_S16x9x50x2_S16x9x50 : S16x9x50x2.Reduces [3] S16x9x50
  shapeCasts_S50_S1x1x50 : S50.ShapeCasts S1x1x50
  broadcasts_S1x1x50_S16x9x50 : S1x1x50.Broadcasts S16x9x50
  slices_S16x250_o0_225_S16x25 : S16x250.Slices ![0, 225] S16x25
  shapeCasts_S16x25_S16x1x25 : S16x25.ShapeCasts S16x1x25
  shapeCasts_S1x25_S1x1x25 : S1x25.ShapeCasts S1x1x25
  broadcasts_S1x1x25_S16x1x25 : S1x1x25.Broadcasts S16x1x25
  reduces_S16x1x25_S16x1 : S16x1x25.Reduces [2] S16x1
  shapeCasts_S1_S1x1 : S1.ShapeCasts S1x1
  broadcasts_S1x1_S16x1 : S1x1.Broadcasts S16x1
  shapeCasts_S16x1_S16x1x1 : S16x1.ShapeCasts S16x1x1
  shapeCasts_S25x1_S1x25x1 : S25x1.ShapeCasts S1x25x1
  broadcasts_S16x1x1_S16x25x1 : S16x1x1.Broadcasts S16x25x1
  broadcasts_S1x25x1_S16x25x1 : S1x25x1.Broadcasts S16x25x1
  reduces_S16x25x1_S16x25 : S16x25x1.Reduces [2] S16x25
  shapeCasts_S25_S1x25 : S25.ShapeCasts S1x25
  broadcasts_S1x25_S16x25 : S1x25.Broadcasts S16x25
  slices_S16x9x50_o0_0_0_S16x9x25 : S16x9x50.Slices ![0, 0, 0] S16x9x25
  slices_S16x9x50_o0_0_25_S16x9x25 : S16x9x50.Slices ![0, 0, 25] S16x9x25
  slices_S16x9x25_o0_0_0_S16x8x25 : S16x9x25.Slices ![0, 0, 0] S16x8x25
  slices_S16x9x25_o0_1_0_S16x8x25 : S16x9x25.Slices ![0, 1, 0] S16x8x25
  slices_S16x9x25_o0_8_0_S16x1x25 : S16x9x25.Slices ![0, 8, 0] S16x1x25
  shapeCasts_S16x1x25_S16x25 : S16x1x25.ShapeCasts S16x25
  slices_S16x9x25_o0_0_0_S16x1x25 : S16x9x25.Slices ![0, 0, 0] S16x1x25
  concatenates_S16x1x25_S16x8x25_S16x1x25_S16x10x25_d1 : Shape.Concatenates [S16x1x25, S16x8x25, S16x1x25] S16x10x25 1
  shapeCasts_S16x10x25_S16x250 : S16x10x25.ShapeCasts S16x250
  shapeCasts_S16x250_S16x1x250 : S16x250.ShapeCasts S16x1x250
  broadcasts_S16x1x250_S16x512x250 : S16x1x250.Broadcasts S16x512x250
  bcast_S256x512x250_S256x512x1x250_0_1_3 : S256x512x250.BroadcastsInDim S256x512x1x250 (![0, 1, 3] : Fin 3 → Fin S256x512x1x250.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x250.size a ≤ S256x512x250.size a
  hwx0_0 : ∀ i : grid0.Coords, EltTy.bits .f32 = 32 ∨ (Rect.block (s := S256x512x250) S16x512x250.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x50.size a ≤ S2x50.size a
  hwx0_1 : ∀ i : grid0.Coords, EltTy.bits .f32 = 32 ∨ (Rect.block (s := S2x50) S2x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x2.size a ≤ S50x2.size a
  hwx0_3 : ∀ i : grid0.Coords, EltTy.bits .f32 = 32 ∨ (Rect.block (s := S50x2) S50x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x25.size a ≤ S1x25.size a
  hwx0_5 : ∀ i : grid0.Coords, EltTy.bits .f32 = 32 ∨ (Rect.block (s := S1x25) S1x25.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S25x1.size a ≤ S25x1.size a
  hwx0_7 : ∀ i : grid0.Coords, EltTy.bits .f32 = 32 ∨ (Rect.block (s := S25x1) S25x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S25.size a ≤ S25.size a
  hwx0_8 : ∀ i : grid0.Coords, EltTy.bits .f32 = 32 ∨ (Rect.block (s := S25) S25.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x512x250.size a ≤ S256x512x250.size a
  hwx0_9 : ∀ i : grid0.Coords, EltTy.bits .f32 = 32 ∨ (Rect.block (s := S256x512x250) S16x512x250.size (cc0_transform_9 i) (hinb0_9 i)).WholeWords (EltTy.packing .f32)

variable [Facts₀]

abbrev win0_0 : Pipeline.Window sig grid0 :=
  Pipeline.Window.ofSpec (Memref.whole main_v0) S16x512x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S25x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S25.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S16x512x250.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x512x1x250 : Shape := ⟨4, ![256, 512, 1, 250]⟩
abbrev S2x50 : Shape := ⟨2, ![2, 50]⟩
abbrev S2 : Shape := ⟨1, ![2]⟩
abbrev S50x2 : Shape := ⟨2, ![50, 2]⟩
abbrev S50 : Shape := ⟨1, ![50]⟩
abbrev S1x25 : Shape := ⟨2, ![1, 25]⟩
abbrev S1 : Shape := ⟨1, ![1]⟩
abbrev S25x1 : Shape := ⟨2, ![25, 1]⟩
abbrev S25 : Shape := ⟨1, ![25]⟩
abbrev S256x512x250 : Shape := ⟨3, ![256, 512, 250]⟩
abbrev S_ : Shape := ⟨0, ![]⟩
abbrev S256x250 : Shape := ⟨2, ![256, 250]⟩
abbrev S9 : Shape := ⟨1, ![9]⟩
abbrev S9x1 : Shape := ⟨2, ![9, 1]⟩
abbrev S1x50 : Shape := ⟨2, ![1, 50]⟩
abbrev S9x50 : Shape := ⟨2, ![9, 50]⟩
abbrev S9x50x1 : Shape := ⟨3, ![9, 50, 1]⟩
abbrev S256x9x50 : Shape := ⟨3, ![256, 9, 50]⟩
abbrev S256x9x2 : Shape := ⟨3, ![256, 9, 2]⟩
abbrev S1x1x2 : Shape := ⟨3, ![1, 1, 2]⟩
abbrev S1x1x50 : Shape := ⟨3, ![1, 1, 50]⟩
abbrev S256x25 : Shape := ⟨2, ![256, 25]⟩
abbrev S256x1 : Shape := ⟨2, ![256, 1]⟩
abbrev S1x1 : Shape := ⟨2, ![1, 1]⟩
abbrev S256x9x25 : Shape := ⟨3, ![256, 9, 25]⟩
abbrev S256x8x25 : Shape := ⟨3, ![256, 8, 25]⟩
abbrev S256x1x25 : Shape := ⟨3, ![256, 1, 25]⟩
abbrev S256x10x25 : Shape := ⟨3, ![256, 10, 25]⟩
abbrev S256x1x1x250 : Shape := ⟨4, ![256, 1, 1, 250]⟩

abbrev nBuf : Space → Nat
  | .hbm => 95
  | .vmem => 0
  | .smem => 0
  | _ => 0

abbrev bufTy : (tb : Table) → Fin (tcTables nBuf tb) → BufTy
  | .hbm, ⟨0, _⟩ => ⟨S256x512x1x250, .f32⟩
  | .hbm, ⟨1, _⟩ => ⟨S2x50, .f32⟩
  | .hbm, ⟨2, _⟩ => ⟨S2, .f32⟩
  | .hbm, ⟨3, _⟩ => ⟨S50x2, .f32⟩
  | .hbm, ⟨4, _⟩ => ⟨S50, .f32⟩
  | .hbm, ⟨5, _⟩ => ⟨S1x25, .f32⟩
  | .hbm, ⟨6, _⟩ => ⟨S1, .f32⟩
  | .hbm, ⟨7, _⟩ => ⟨S25x1, .f32⟩
  | .hbm, ⟨8, _⟩ => ⟨S25, .f32⟩
  | .hbm, ⟨9, _⟩ => ⟨S256x512x250, .f32⟩
  | .hbm, ⟨10, _⟩ => ⟨S_, .f32⟩
  | .hbm, ⟨11, _⟩ => ⟨S256x250, .f32⟩
  | .hbm, ⟨12, _⟩ => ⟨S_, .f32⟩
  | .hbm, ⟨13, _⟩ => ⟨S256x250, .f32⟩
  | .hbm, ⟨14, _⟩ => ⟨S256x250, .f32⟩
  | .hbm, ⟨15, _⟩ => ⟨S9, .i32⟩
  | .hbm, ⟨16, _⟩ => ⟨S9x1, .i32⟩
  | .hbm, ⟨17, _⟩ => ⟨S_, .i32⟩
  | .hbm, ⟨18, _⟩ => ⟨S9x1, .i32⟩
  | .hbm, ⟨19, _⟩ => ⟨S9x1, .i32⟩
  | .hbm, ⟨20, _⟩ => ⟨S50, .i32⟩
  | .hbm, ⟨21, _⟩ => ⟨S1x50, .i32⟩
  | .hbm, ⟨22, _⟩ => ⟨S9x50, .i32⟩
  | .hbm, ⟨23, _⟩ => ⟨S9x50, .i32⟩
  | .hbm, ⟨24, _⟩ => ⟨S9x50, .i32⟩
  | .hbm, ⟨25, _⟩ => ⟨S_, .i32⟩
  | .hbm, ⟨26, _⟩ => ⟨S9x50, .i32⟩
  | .hbm, ⟨27, _⟩ => ⟨S9x50, .i1⟩
  | .hbm, ⟨28, _⟩ => ⟨S_, .i32⟩
  | .hbm, ⟨29, _⟩ => ⟨S9x50, .i32⟩
  | .hbm, ⟨30, _⟩ => ⟨S9x50, .i32⟩
  | .hbm, ⟨31, _⟩ => ⟨S9x50, .i32⟩
  | .hbm, ⟨32, _⟩ => ⟨S9x50x1, .i32⟩
  | .hbm, ⟨33, _⟩ => ⟨S256x9x50, .f32⟩
  | .hbm, ⟨34, _⟩ => ⟨S256x9x2, .f32⟩
  | .hbm, ⟨35, _⟩ => ⟨S1x1x2, .f32⟩
  | .hbm, ⟨36, _⟩ => ⟨S256x9x2, .f32⟩
  | .hbm, ⟨37, _⟩ => ⟨S256x9x2, .f32⟩
  | .hbm, ⟨38, _⟩ => ⟨S_, .f32⟩
  | .hbm, ⟨39, _⟩ => ⟨S256x9x2, .f32⟩
  | .hbm, ⟨40, _⟩ => ⟨S256x9x2, .f32⟩
  | .hbm, ⟨41, _⟩ => ⟨S256x9x50, .f32⟩
  | .hbm, ⟨42, _⟩ => ⟨S1x1x50, .f32⟩
  | .hbm, ⟨43, _⟩ => ⟨S256x9x50, .f32⟩
  | .hbm, ⟨44, _⟩ => ⟨S256x9x50, .f32⟩
  | .hbm, ⟨45, _⟩ => ⟨S256x9x50, .f32⟩
  | .hbm, ⟨46, _⟩ => ⟨S256x9x50, .f32⟩
  | .hbm, ⟨47, _⟩ => ⟨S_, .f32⟩
  | .hbm, ⟨48, _⟩ => ⟨S256x9x50, .f32⟩
  | .hbm, ⟨49, _⟩ => ⟨S256x9x50, .f32⟩
  | .hbm, ⟨50, _⟩ => ⟨S_, .f32⟩
  | .hbm, ⟨51, _⟩ => ⟨S256x9x50, .f32⟩
  | .hbm, ⟨52, _⟩ => ⟨S256x9x50, .f32⟩
  | .hbm, ⟨53, _⟩ => ⟨S256x25, .f32⟩
  | .hbm, ⟨54, _⟩ => ⟨S256x1, .f32⟩
  | .hbm, ⟨55, _⟩ => ⟨S1x1, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x25, .f32⟩
  | .hbm, ⟨62, _⟩ => ⟨S1x25, .f32⟩
  | .hbm, ⟨63, _⟩ => ⟨S256x25, .f32⟩
  | .hbm, ⟨64, _⟩ => ⟨S256x25, .f32⟩
  | .hbm, ⟨65, _⟩ => ⟨S256x25, .f32⟩
  | .hbm, ⟨66, _⟩ => ⟨S256x25, .f32⟩
  | .hbm, ⟨67, _⟩ => ⟨S_, .f32⟩
  | .hbm, ⟨68, _⟩ => ⟨S256x25, .f32⟩
  | .hbm, ⟨69, _⟩ => ⟨S256x25, .f32⟩
  | .hbm, ⟨70, _⟩ => ⟨S_, .f32⟩
  | .hbm, ⟨71, _⟩ => ⟨S256x25, .f32⟩
  | .hbm, ⟨72, _⟩ => ⟨S256x25, .f32⟩
  | .hbm, ⟨73, _⟩ => ⟨S256x9x25, .f32⟩
  | .hbm, ⟨74, _⟩ => ⟨S256x9x25, .f32⟩
  | .hbm, ⟨75, _⟩ => ⟨S256x8x25, .f32⟩
  | .hbm, ⟨76, _⟩ => ⟨S256x8x25, .f32⟩
  | .hbm, ⟨77, _⟩ => ⟨S256x8x25, .f32⟩
  | .hbm, ⟨78, _⟩ => ⟨S_, .f32⟩
  | .hbm, ⟨79, _⟩ => ⟨S256x8x25, .f32⟩
  | .hbm, ⟨80, _⟩ => ⟨S256x8x25, .f32⟩
  | .hbm, ⟨81, _⟩ => ⟨S256x1x25, .f32⟩
  | .hbm, ⟨82, _⟩ => ⟨S256x25, .f32⟩
  | .hbm, ⟨83, _⟩ => ⟨S256x25, .f32⟩
  | .hbm, ⟨84, _⟩ => ⟨S_, .f32⟩
  | .hbm, ⟨85, _⟩ => ⟨S256x25, .f32⟩
  | .hbm, ⟨86, _⟩ => ⟨S256x25, .f32⟩
  | .hbm, ⟨87, _⟩ => ⟨S256x1x25, .f32⟩
  | .hbm, ⟨88, _⟩ => ⟨S256x1x25, .f32⟩
  | .hbm, ⟨89, _⟩ => ⟨S256x10x25, .f32⟩
  | .hbm, ⟨90, _⟩ => ⟨S256x250, .f32⟩
  | .hbm, ⟨91, _⟩ => ⟨S256x512x1x250, .f32⟩
  | .hbm, ⟨92, _⟩ => ⟨S256x1x1x250, .f32⟩
  | .hbm, ⟨93, _⟩ => ⟨S256x512x1x250, .f32⟩
  | .hbm, ⟨94, _⟩ => ⟨S256x512x1x250, .f32⟩
  | _, _ => ⟨S256x512x1x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_cst : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  shapeCasts_S256x512x1x250_S256x512x250 : S256x512x1x250.ShapeCasts S256x512x250
  reducesTo_S256x512x250_S256x250_d1 : S256x512x250.ReducesTo [1] S256x250
  h_S_ : 0 < S_.numel
  bcast_S_S256x250 : S_.BroadcastsInDim S256x250 (![] : Fin 0 → Fin S256x250.rank)
  bcast_S9_S9x1_0 : S9.BroadcastsInDim S9x1 (![0] : Fin 1 → Fin S9x1.rank)
  bcast_S_S9x1 : S_.BroadcastsInDim S9x1 (![] : Fin 0 → Fin S9x1.rank)
  bcast_S50_S1x50_1 : S50.BroadcastsInDim S1x50 (![1] : Fin 1 → Fin S1x50.rank)
  bcast_S9x1_S9x50_0_1 : S9x1.BroadcastsInDim S9x50 (![0, 1] : Fin 2 → Fin S9x50.rank)
  bcast_S1x50_S9x50_0_1 : S1x50.BroadcastsInDim S9x50 (![0, 1] : Fin 2 → Fin S9x50.rank)
  bcast_S_S9x50 : S_.BroadcastsInDim S9x50 (![] : Fin 0 → Fin S9x50.rank)
  bcast_S9x50_S9x50x1_0_1 : S9x50.BroadcastsInDim S9x50x1 (![0, 1] : Fin 2 → Fin S9x50x1.rank)
  bcast_S2_S1x1x2_2 : S2.BroadcastsInDim S1x1x2 (![2] : Fin 1 → Fin S1x1x2.rank)
  bcast_S1x1x2_S256x9x2_0_1_2 : S1x1x2.BroadcastsInDim S256x9x2 (![0, 1, 2] : Fin 3 → Fin S256x9x2.rank)
  bcast_S_S256x9x2 : S_.BroadcastsInDim S256x9x2 (![] : Fin 0 → Fin S256x9x2.rank)
  bcast_S50_S1x1x50_2 : S50.BroadcastsInDim S1x1x50 (![2] : Fin 1 → Fin S1x1x50.rank)
  bcast_S1x1x50_S256x9x50_0_1_2 : S1x1x50.BroadcastsInDim S256x9x50 (![0, 1, 2] : Fin 3 → Fin S256x9x50.rank)
  bcast_S_S256x9x50 : S_.BroadcastsInDim S256x9x50 (![] : Fin 0 → Fin S256x9x50.rank)
  slices_S256x250_S256x25_0_225 : S256x250.Slices ![0, 225] S256x25
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  bcast_S25_S1x25_1 : S25.BroadcastsInDim S1x25 (![1] : Fin 1 → Fin S1x25.rank)
  bcast_S1x25_S256x25_0_1 : S1x25.BroadcastsInDim S256x25 (![0, 1] : Fin 2 → Fin S256x25.rank)
  bcast_S_S256x25 : S_.BroadcastsInDim S256x25 (![] : Fin 0 → Fin S256x25.rank)
  slices_S256x9x50_S256x9x25_0_0_0 : S256x9x50.Slices ![0, 0, 0] S256x9x25
  slices_S256x9x50_S256x9x25_0_0_25 : S256x9x50.Slices ![0, 0, 25] S256x9x25
  slices_S256x9x25_S256x8x25_0_0_0 : S256x9x25.Slices ![0, 0, 0] S256x8x25
  slices_S256x9x25_S256x8x25_0_1_0 : S256x9x25.Slices ![0, 1, 0] S256x8x25
  bcast_S_S256x8x25 : S_.BroadcastsInDim S256x8x25 (![] : Fin 0 → Fin S256x8x25.rank)
  slices_S256x9x25_S256x1x25_0_8_0 : S256x9x25.Slices ![0, 8, 0] S256x1x25
  shapeCasts_S256x1x25_S256x25 : S256x1x25.ShapeCasts S256x25
  bcast_S256x25_S256x1x25_0_2 : S256x25.BroadcastsInDim S256x1x25 (![0, 2] : Fin 2 → Fin S256x1x25.rank)
  slices_S256x9x25_S256x1x25_0_0_0 : S256x9x25.Slices ![0, 0, 0] S256x1x25
  concatenates_S256x1x25_S256x8x25_S256x1x25_S256x10x25_d1 : Shape.Concatenates [S256x1x25, S256x8x25, S256x1x25] S256x10x25 1
  shapeCasts_S256x10x25_S256x250 : S256x10x25.ShapeCasts S256x250
  bcast_S256x512x250_S256x512x1x250_0_1_3 : S256x512x250.BroadcastsInDim S256x512x1x250 (![0, 1, 3] : Fin 3 → Fin S256x512x1x250.rank)
  bcast_S256x250_S256x1x1x250_0_3 : S256x250.BroadcastsInDim S256x1x1x250 (![0, 3] : Fin 2 → Fin S256x1x1x250.rank)
  bcast_S256x1x1x250_S256x512x1x250_0_1_2_3 : S256x1x1x250.BroadcastsInDim S256x512x1x250 (![0, 1, 2, 3] : Fin 4 → Fin S256x512x1x250.rank)
  gather_S256x250_S9x50x1_S256x9x50_0_1_n_n_1_2_2561_wf : GatherDims.WF S256x250 S9x50x1 S256x9x50 [0] [1] [] [1] [] 2 ![256, 1]
  dot_S256x9x50_S2x50_S256x9x2_2_1_01_0_n_n_wf : DotDims.WF S256x9x50 S2x50 S256x9x2 [2] [1] [0, 1] [0] [] []
  dot_S256x9x2_S50x2_S256x9x50_2_1_01_0_n_n_wf : DotDims.WF S256x9x2 S50x2 S256x9x50 [2] [1] [0, 1] [0] [] []
  dot_S256x25_S1x25_S256x1_1_1_0_0_n_n_wf : DotDims.WF S256x25 S1x25 S256x1 [1] [1] [0] [0] [] []
  dot_S256x1_S25x1_S256x25_1_1_0_0_n_n_wf : DotDims.WF S256x1 S25x1 S256x25 [1] [1] [0] [0] [] []

variable [Facts₀]

def gather_S256x250_S9x50x1_S256x9x50_0_1_n_n_1_2_2561 : GatherDims S256x250 S9x50x1 S256x9x50 where
  offsetDims := [0]
  collapsedSliceDims := [1]
  operandBatchingDims := []
  startIndicesBatchingDims := []
  startIndexMap := [1]
  indexVectorDim := 2
  sliceSizes := ![256, 1]
  wf := gather_S256x250_S9x50x1_S256x9x50_0_1_n_n_1_2_2561_wf
def dot_S256x9x50_S2x50_S256x9x2_2_1_01_0_n_n : DotDims S256x9x50 S2x50 S256x9x2 where
  lhsContracting := [2]
  rhsContracting := [1]
  lhsNonContracting := [0, 1]
  rhsNonContracting := [0]
  lhsBatch := []
  rhsBatch := []
  wf := dot_S256x9x50_S2x50_S256x9x2_2_1_01_0_n_n_wf
def dot_S256x9x2_S50x2_S256x9x50_2_1_01_0_n_n : DotDims S256x9x2 S50x2 S256x9x50 where
  lhsContracting := [2]
  rhsContracting := [1]
  lhsNonContracting := [0, 1]
  rhsNonContracting := [0]
  lhsBatch := []
  rhsBatch := []
  wf := dot_S256x9x2_S50x2_S256x9x50_2_1_01_0_n_n_wf
def dot_S256x25_S1x25_S256x1_1_1_0_0_n_n : DotDims S256x25 S1x25 S256x1 where
  lhsContracting := [1]
  rhsContracting := [1]
  lhsNonContracting := [0]
  rhsNonContracting := [0]
  lhsBatch := []
  rhsBatch := []
  wf := dot_S256x25_S1x25_S256x1_1_1_0_0_n_n_wf
def dot_S256x1_S25x1_S256x25_1_1_0_0_n_n : DotDims S256x1 S25x1 S256x25 where
  lhsContracting := [1]
  rhsContracting := [1]
  lhsNonContracting := [0]
  rhsNonContracting := [0]
  lhsBatch := []
  rhsBatch := []
  wf := dot_S256x1_S25x1_S256x25_1_1_0_0_n_n_wf

class Facts : Prop extends Facts₀ where

variable [Facts]
-- ==== Proof.Spec.lean ====
/-
  What both programs compute, as ONE function of the argument arrays, on the extended reals, in layers.

  For one batch row `xr : Fin 512 → Fin 250 → EReal` (512 pipelines, 250 time steps):
    mean xr t        = (Σ_p xr p t) / 512                                  the average over the pipelines
    pre50 mn k r     = Σ_{j<50} mn (25k + j) · w1 r j + b1 r               window k (length 50, stride 25), first layer
    gate50 hp k j    = logistic (Σ_{r<2} max (hp k r) 0 · w2 j r + b2 j)   clip below at zero, second layer, logistic
    gate25 mn j      = logistic (Σ_{r<1} max (Σ_{i<25} mn (225 + i) · u1 0 i + c1 0) 0 · u2 j r + c2 j)
                                                                           the same two layers on the trailing window
    seg g50 g25 s j  = g50 0 j                                  (s = 0)
                       (g50 (s-1) (25 + j) + g50 s j) · ½       (1 ≤ s ≤ 8)   overlap-add of neighbouring windows
                       (g50 8 (25 + j) + g25 j) · ½             (s = 9)
    weightOf g50 g25 t = seg g50 g25 (t / 25) (t % 25)
    scaled p t       = xr p t · weight t
  Nothing beyond the order of operations written here is used, so two programs that both spell the computation this
  way agree on every extended real, finite or not.
-/
import Idealize.ShloMosaic.PureOps.Ideal.Laws
import Idealize.ShloMosaic.Lib.ValueIdx

noncomputable section

namespace Cert.Gate

open Idealize.ShloMosaic Idealize.ShloMosaic.ValueIdx

/-- The f32 word of 512.0, the number of pipelines averaged over. -/
abbrev c512 : EReal := Ideal.ofBits .f32 0x44000000#32
/-- The f32 word of 0.5, the weight of each of two overlapping windows. -/
abbrev half : EReal := Ideal.ofBits .f32 0x3F000000#32

/-- Shapes of the eight parameter arrays. -/
abbrev SW1 : Shape := ⟨2, ![2, 50]⟩
abbrev SB1 : Shape := ⟨1, ![2]⟩
abbrev SW2 : Shape := ⟨2, ![50, 2]⟩
abbrev SB2 : Shape := ⟨1, ![50]⟩
abbrev SU1 : Shape := ⟨2, ![1, 25]⟩
abbrev SC1 : Shape := ⟨1, ![1]⟩
abbrev SU2 : Shape := ⟨2, ![25, 1]⟩
abbrev SC2 : Shape := ⟨1, ![25]⟩

/-- Entry `j` of window `k` sits at time step `25k + j`. -/
def winIdx (k : Fin 9) (j : Fin 50) : Fin 250 := ⟨25 * k.val + j.val, by omega⟩
/-- Entry `j` of the trailing window sits at time step `225 + j`. -/
def tailIdx (j : Fin 25) : Fin 250 := ⟨225 + j.val, by omega⟩

/-- The average over the 512 pipelines at time step `t`. -/
def mean (xr : Fin 512 → Fin 250 → EReal) (t : Fin 250) : EReal := Ideal.div (∑ p : Fin 512, xr p t) c512

/-- First layer of the length-50 gate on window `k`, before clipping: an affine map of the window to two hidden units. -/
def pre50 (mn : Fin 250 → EReal) (w1 : SW1.Idx → EReal) (b1 : SB1.Idx → EReal) (k : Fin 9) (r : Fin 2) : EReal :=
  (∑ j : Fin 50, mn (winIdx k j) * w1 (ix2 r j)) + b1 (ix1 r)

/-- Clip the hidden units below at zero, map back to 50 entries, apply the logistic function. -/
def gate50 (hp : Fin 9 → Fin 2 → EReal) (w2 : SW2.Idx → EReal) (b2 : SB2.Idx → EReal) (k : Fin 9) (j : Fin 50) : EReal :=
  Ideal.logistic ((∑ r : Fin 2, max (hp k r) 0 * w2 (ix2 j r)) + b2 (ix1 j))

/-- The same two layers on the trailing window of length 25, with one hidden unit. -/
def gate25 (mn : Fin 250 → EReal) (u1 : SU1.Idx → EReal) (c1 : SC1.Idx → EReal) (u2 : SU2.Idx → EReal) (c2 : SC2.Idx → EReal)
    (j : Fin 25) : EReal :=
  Ideal.logistic ((∑ r : Fin 1,
    max ((∑ i : Fin 25, mn (tailIdx i) * u1 (ix2 (0 : Fin 1) i)) + c1 (ix1 (0 : Fin 1))) 0 * u2 (ix2 j r)) + c2 (ix1 j))

/-- Segment `s` of ten, each 25 long: the first half of window 0; for `1 ≤ s ≤ 8` the mean of the second half of window
    `s - 1` and the first half of window `s`; last the mean of the second half of window 8 and the trailing gate. -/
def seg (g50 : Fin 9 → Fin 50 → EReal) (g25 : Fin 25 → EReal) (s : Fin 10) (j : Fin 25) : EReal :=
  if s.val = 0 then g50 ⟨0, by omega⟩ ⟨j.val, by omega⟩
  else if h : s.val < 9 then (g50 ⟨s.val - 1, by omega⟩ ⟨25 + j.val, by omega⟩ + g50 ⟨s.val, h⟩ ⟨j.val, by omega⟩) * half
  else (g50 ⟨8, by omega⟩ ⟨25 + j.val, by omega⟩ + g25 j) * half

/-- The weight of time step `t`: segment `t / 25` at `t % 25`. -/
def weightOf (g50 : Fin 9 → Fin 50 → EReal) (g25 : Fin 25 → EReal) (t : Fin 250) : EReal :=
  seg g50 g25 ⟨t.val / 25, by omega⟩ ⟨t.val % 25, by omega⟩

section
variable (xr : Fin 512 → Fin 250 → EReal)
  (w1 : SW1.Idx → EReal) (b1 : SB1.Idx → EReal) (w2 : SW2.Idx → EReal) (b2 : SB2.Idx → EReal)
  (u1 : SU1.Idx → EReal) (c1 : SC1.Idx → EReal) (u2 : SU2.Idx → EReal) (c2 : SC2.Idx → EReal)

/-- The weight of time step `t` of the row `xr`. -/
def weight (t : Fin 250) : EReal :=
  weightOf (gate50 (pre50 (mean xr) w1 b1) w2 b2) (gate25 (mean xr) u1 c1 u2 c2) t

/-- The result at pipeline `p`, time step `t` of the row. -/
def scaled (p : Fin 512) (t : Fin 250) : EReal :=
  xr p t * weight xr w1 b1 w2 b2 u1 c1 u2 c2 t

end

end Cert.Gate

end
-- ==== Proof.KerPreLayout.lean ====
/-
  Layout operations read at an index given by coordinates: the shape casts that insert unit axes inside or in front of a
  shape, the broadcasts along such unit axes, and the index a sum over the last of four axes inserts its coordinate into.
  Each cast is the row-major position computed on both sides; each broadcast is one equation per axis.
-/
import Idealize.ShloMosaic.PureOps.Ideal.Laws
import Idealize.ShloMosaic.Lib.ValueIdx
import Idealize.ShloMosaic.Lib.Pipeline.Value

noncomputable section
open Idealize.ShloMosaic Idealize.ShloMosaic.ValueIdx

/-! ## Unit axes added by a shape cast, and broadcasts along unit axes, read at an index given by coordinates -/

namespace Cert.KRow.Pre

variable {α : Type}

/-- An `[a, b]` array cast to `[a, 1, b]` reads, at `(i, u, j)`, the operand at `(i, j)`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, c]` array cast to `[a, b, 1, c]` reads, at `(i, k, u, j)`, the operand at `(i, k, j)`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (k : Fin b) (u : Fin 1) (j : Fin c) :
    shapeCast ⟨4, ![a, b, 1, c]⟩ x h (ix4 i k u j) = x (ix3 i k j) :=
  shapeCast_apply x h _ _ (by
    have hu : u.val = 0 := by omega
    rw [Shape.rowMajor_val_four, Shape.rowMajor_val_three]
    show (i.val * b + k.val) * c + j.val = ((i.val * b + k.val) * 1 + u.val) * c + j.val
    rw [hu, Nat.mul_one, Nat.add_zero])

/-- An `[a, b]` array cast to `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- An `[a]` array cast to `[1, 1, a]` reads, at `(u, v, i)`, the operand at `i`. -/
theorem cast_a_11a {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b, 1, c]` array broadcast to `[a, b, n, c]` reads, at `(i, k, r, j)`, the operand at `(i, k, 0, j)`. -/
theorem bcast_ab1c_abnc {a b n c : ℕ} (x : (⟨4, ![a, b, 1, c]⟩ : Shape).Idx → α)
    (h : (⟨4, ![a, b, 1, c]⟩ : Shape).Broadcasts ⟨4, ![a, b, n, c]⟩) (i : Fin a) (k : Fin b) (r : Fin n) (j : Fin c) :
    broadcastTo ⟨4, ![a, b, n, c]⟩ x h (ix4 i k r j) = x (ix4 i k (0 : Fin 1) j) := by
  refine broadcastTo_apply x h (ix4 i k r j) (ix4 i k (0 : Fin 1) j) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl
  | ⟨3, _⟩ =>
    show j.val = if c = 1 then 0 else j.val
    split
    · have := j.isLt; omega
    · rfl

/-- A `[1, 1, n, c]` array broadcast to `[a, b, n, c]` reads, at `(i, k, r, j)`, the operand at `(0, 0, r, j)`. -/
theorem bcast_11nc_abnc {a b n c : ℕ} (x : (⟨4, ![1, 1, n, c]⟩ : Shape).Idx → α)
    (h : (⟨4, ![1, 1, n, c]⟩ : Shape).Broadcasts ⟨4, ![a, b, n, c]⟩) (i : Fin a) (k : Fin b) (r : Fin n) (j : Fin c) :
    broadcastTo ⟨4, ![a, b, n, c]⟩ x h (ix4 i k r j) = x (ix4 (0 : Fin 1) (0 : Fin 1) r j) := by
  refine broadcastTo_apply x h (ix4 i k r j) (ix4 (0 : Fin 1) (0 : Fin 1) r j) fun ax => ?_
  match ax with
  | ⟨0, _⟩ => rfl
  | ⟨1, _⟩ => rfl
  | ⟨2, _⟩ =>
    show r.val = if n = 1 then 0 else r.val
    split
    · have := r.isLt; omega
    · rfl
  | ⟨3, _⟩ =>
    show j.val = if c = 1 then 0 else j.val
    split
    · have := j.isLt; omega
    · rfl

/-- A `[1, 1, n]` array broadcast to `[a, b, n]` reads, at `(i, k, r)`, the operand at `(0, 0, r)`. -/
theorem bcast_11n_abn {a b n : ℕ} (x : (⟨3, ![1, 1, n]⟩ : Shape).Idx → α)
    (h : (⟨3, ![1, 1, n]⟩ : Shape).Broadcasts ⟨3, ![a, b, n]⟩) (i : Fin a) (k : Fin b) (r : Fin n) :
    broadcastTo ⟨3, ![a, b, n]⟩ x h (ix3 i k r) = x (ix3 (0 : Fin 1) (0 : Fin 1) r) := by
  refine broadcastTo_apply x h (ix3 i k r) (ix3 (0 : Fin 1) (0 : Fin 1) r) fun ax => ?_
  match ax with
  | ⟨0, _⟩ => rfl
  | ⟨1, _⟩ => rfl
  | ⟨2, _⟩ =>
    show r.val = if n = 1 then 0 else r.val
    split
    · have := r.isLt; omega
    · rfl

/-- The index a sum over the last axis of a rank-4 array inserts its coordinate into: `(i, k, r)` with `j` last. -/
theorem lift_last4 {a b c d : ℕ} (h : (⟨4, ![a, b, c, d]⟩ : Shape).Reduces [3] ⟨3, ![a, b, c]⟩)
    (i : Fin a) (k : Fin b) (r : Fin c) (j : Fin d) : h.lift (ix3 i k r) j = ix4 i k r j := by
  funext ax
  refine Fin.ext ?_
  match ax with
  | ⟨0, _⟩ => rfl
  | ⟨1, _⟩ => rfl
  | ⟨2, _⟩ => rfl
  | ⟨3, _⟩ => rfl

end Cert.KRow.Pre

end
-- ==== Proof.KerPreWin.lean ====
/-
  The nine overlapping windows of the mean (length 50, stride 25), stacked along a new axis: the stack at
  (b, k, j) is the mean at (b, 25k + j). Each piece is a cut of the mean along the time axis with a unit axis
  inserted; the stack reads the piece its window coordinate names.
-/
import proofs.«163309_j13271448944756_2_alg».proof.Proof.Spec
import proofs.«163309_j13271448944756_2_alg».proof.Proof.Gen.KernelIdeal.Skeleton
import proofs.«163309_j13271448944756_2_alg».proof.Proof.KerPreLayout
import Idealize.ShloMosaic.Lib.Pipeline.Value
import Idealize.ShloMosaic.Lib.ValueLayout

noncomputable section
open Idealize.ShloMosaic Idealize.ShloMosaic.ValueIdx

namespace Cert.KRow.Pre
open Cert.KernelIdeal Cert.KernelIdeal.Gen

/-- One window piece: the mean cut along the time axis from `o` with a unit axis inserted reads, at `(b, u, j)`, the
    mean at `(b, o + j)`. -/
theorem piece_apply (o : Nat) (m : FVec Ideal S16x250 .f32) (h : S16x250.Slices ![0, o] S16x50)
    (h' : S16x50.ShapeCasts S16x1x50) (b : Fin 16) (u : Fin 1) (j : Fin 50) (t : Fin 250) (ht : t.val = o + j.val) :
    shapeCast S16x1x50 (extractStridedSlice S16x50 ![0, o] m h) h' (ix3 b u j) = m (ix2 b t) :=
  (cast_ab_a1b _ h' b u j).trans (slice2_axis1_apply o m h b j t ht)

/-- A concatenation along axis 1 of pieces `[16, 1, 50]` into `[16, 9, 50]`, when piece `n` is `x₁` and the pieces before
    it have total extent `n`, reads at `(b, n, j)` the piece `x₁` at `(b, 0, j)`. -/
theorem cat_read (xs : List ((s : Shape) × (s.Idx → EReal))) (h : Shape.Concatenates (xs.map (·.1)) S16x9x50 1)
    (n : Nat) (hn : n < xs.length) (x₁ : S16x1x50.Idx → EReal) (hx : xs[n] = ⟨S16x1x50, x₁⟩)
    (hpre : (((xs.take n).map (·.1)).map fun s => if h : s.rank = S16x9x50.rank then s.size ((1 : Fin 3).cast h.symm) else 0).sum = n)
    (b : Fin 16) (k : Fin 9) (hk : k.val = n) (j : Fin 50) :
    concatenate S16x9x50 1 xs h (ix3 b k j) = x₁ (ix3 b (0 : Fin 1) j) :=
  concatenate_apply_piece 1 xs h _ n hn S16x1x50 x₁ hx rfl n hpre (ix3 b (0 : Fin 1) j)
    (fun ax => match ax with
      | ⟨0, _⟩ => fun _ => rfl
      | ⟨1, _⟩ => fun hne => absurd rfl hne
      | ⟨2, _⟩ => fun _ => rfl)
    (by show n + 0 = k.val; omega)

/-- The nine windows stacked: entry `j` of window `k` of batch row `b` is the mean at time step `25k + j`. -/
theorem win_apply (m : FVec Ideal S16x250 .f32) (b : Fin 16) (k : Fin 9) (j : Fin 50) :
    concatenate S16x9x50 1
      [⟨S16x1x50, shapeCast S16x1x50 (extractStridedSlice S16x50 ![0, 0] m slices_S16x250_o0_0_S16x50) shapeCasts_S16x50_S16x1x50⟩,
       ⟨S16x1x50, shapeCast S16x1x50 (extractStridedSlice S16x50 ![0, 25] m slices_S16x250_o0_25_S16x50) shapeCasts_S16x50_S16x1x50⟩,
       ⟨S16x1x50, shapeCast S16x1x50 (extractStridedSlice S16x50 ![0, 50] m slices_S16x250_o0_50_S16x50) shapeCasts_S16x50_S16x1x50⟩,
       ⟨S16x1x50, shapeCast S16x1x50 (extractStridedSlice S16x50 ![0, 75] m slices_S16x250_o0_75_S16x50) shapeCasts_S16x50_S16x1x50⟩,
       ⟨S16x1x50, shapeCast S16x1x50 (extractStridedSlice S16x50 ![0, 100] m slices_S16x250_o0_100_S16x50) shapeCasts_S16x50_S16x1x50⟩,
       ⟨S16x1x50, shapeCast S16x1x50 (extractStridedSlice S16x50 ![0, 125] m slices_S16x250_o0_125_S16x50) shapeCasts_S16x50_S16x1x50⟩,
       ⟨S16x1x50, shapeCast S16x1x50 (extractStridedSlice S16x50 ![0, 150] m slices_S16x250_o0_150_S16x50) shapeCasts_S16x50_S16x1x50⟩,
       ⟨S16x1x50, shapeCast S16x1x50 (extractStridedSlice S16x50 ![0, 175] m slices_S16x250_o0_175_S16x50) shapeCasts_S16x50_S16x1x50⟩,
       ⟨S16x1x50, shapeCast S16x1x50 (extractStridedSlice S16x50 ![0, 200] m slices_S16x250_o0_200_S16x50) shapeCasts_S16x50_S16x1x50⟩]
      concatenates_S16x1x50_S16x1x50_S16x1x50_S16x1x50_S16x1x50_S16x1x50_S16x1x50_S16x1x50_S16x1x50_S16x9x50_d1 (ix3 b k j) = m (ix2 b (Cert.Gate.winIdx k j)) := by
  match k with
  | ⟨0, _⟩ => exact (cat_read _ _ 0 (by show _ < 9; omega) _ rfl rfl b _ rfl j).trans (piece_apply 0 m _ _ b 0 j _ rfl)
  | ⟨1, _⟩ => exact (cat_read _ _ 1 (by show _ < 9; omega) _ rfl rfl b _ rfl j).trans (piece_apply 25 m _ _ b 0 j _ rfl)
  | ⟨2, _⟩ => exact (cat_read _ _ 2 (by show _ < 9; omega) _ rfl rfl b _ rfl j).trans (piece_apply 50 m _ _ b 0 j _ rfl)
  | ⟨3, _⟩ => exact (cat_read _ _ 3 (by show _ < 9; omega) _ rfl rfl b _ rfl j).trans (piece_apply 75 m _ _ b 0 j _ rfl)
  | ⟨4, _⟩ => exact (cat_read _ _ 4 (by show _ < 9; omega) _ rfl rfl b _ rfl j).trans (piece_apply 100 m _ _ b 0 j _ rfl)
  | ⟨5, _⟩ => exact (cat_read _ _ 5 (by show _ < 9; omega) _ rfl rfl b _ rfl j).trans (piece_apply 125 m _ _ b 0 j _ rfl)
  | ⟨6, _⟩ => exact (cat_read _ _ 6 (by show _ < 9; omega) _ rfl rfl b _ rfl j).trans (piece_apply 150 m _ _ b 0 j _ rfl)
  | ⟨7, _⟩ => exact (cat_read _ _ 7 (by show _ < 9; omega) _ rfl rfl b _ rfl j).trans (piece_apply 175 m _ _ b 0 j _ rfl)
  | ⟨8, _⟩ => exact (cat_read _ _ 8 (by show _ < 9; omega) _ rfl rfl b _ rfl j).trans (piece_apply 200 m _ _ b 0 j _ rfl)

end Cert.KRow.Pre

end
-- ==== Proof.KerPre.lean ====
/-
  The first half of the kernel body read at an index. The second payload is the mean over the 512 pipelines: a sum
  along axis 1 divided by the word of 512. The third payload is the first layer on the nine windows of that mean:
  at (b, k, r) the sum over the 50 entries of window k of the mean times the weight row r, plus the bias at r.
-/
import proofs.«163309_j13271448944756_2_alg».proof.Proof.Spec
import proofs.«163309_j13271448944756_2_alg».proof.Proof.Gen.KernelIdeal.Skeleton
import proofs.«163309_j13271448944756_2_alg».proof.Proof.KerPreLayout
import proofs.«163309_j13271448944756_2_alg».proof.Proof.KerPreWin
import Idealize.ShloMosaic.Lib.Pipeline.Value

noncomputable section
open Idealize.ShloMosaic Idealize.ShloMosaic.ValueIdx

namespace Cert.KRow.Pre
open Cert.KernelIdeal Cert.KernelIdeal.Gen

/-- The block cast to its own shape is the block. -/
theorem pay1_id (x0 : Vec Ideal S16x512x250 .f32) : k0_pay1 (F := Ideal) x0 = x0 := by
  unfold k0_pay1
  exact shapeCast_self _ _

end Cert.KRow.Pre

namespace Cert.KRow
open Cert.KernelIdeal Cert.KernelIdeal.Gen

/-- The second payload at `(b, t)`: the sum over the 512 pipelines of the block at `(b, p, t)`, divided by 512. -/
theorem pay2_apply (x0 : Vec Ideal S16x512x250 .f32) (b : Fin 16) (t : Fin 250) :
    k0_pay2 (F := Ideal) x0 (ix2 b t) = Cert.Gate.mean (fun p t' => x0 (ix3 b p t')) t := by
  unfold k0_pay2
  rw [Pre.pay1_id]
  unfold Cert.Gate.mean
  refine congrArg (fun z => Ideal.div z Cert.Gate.c512) ?_
  refine (Ideal.multiReduction_add_single x0 _ _ _ _ (ix2 b t)).trans ?_
  refine Finset.sum_congr rfl fun p _ => congrArg x0 ?_
  funext a
  refine Fin.ext ?_
  match a with
  | ⟨0, _⟩ => rfl
  | ⟨1, _⟩ => rfl
  | ⟨2, _⟩ => rfl

end Cert.KRow

namespace Cert.KRow.Pre
open Cert.KernelIdeal Cert.KernelIdeal.Gen

/-- The third payload at `(b, k, r)` over the second payload: the first layer applied to window `k` of the mean. -/
theorem pay3_mid (x0 : Vec Ideal S16x512x250 .f32) (x1 : Vec Ideal S2x50 .f32) (x2 : Vec Ideal S2 .f32)
    (b : Fin 16) (k : Fin 9) (r : Fin 2) :
    k0_pay3 (F := Ideal) x0 x1 x2 (ix3 b k r)
      = Cert.Gate.pre50 (fun t => k0_pay2 (F := Ideal) x0 (ix2 b t)) x1 x2 k r := by
  unfold k0_pay3
  generalize k0_pay2 (F := Ideal) x0 = m
  unfold Cert.Gate.pre50
  refine (addf_apply _ _ _).trans ?_
  refine congrArg₂ (· + ·) ?_ ?_
  · refine (Ideal.multiReduction_add_single _ _ _ _ _ (ix3 b k r)).trans ?_
    refine Finset.sum_congr rfl fun j _ => ?_
    refine (congrArg _ (lift_last4 _ b k r j)).trans ?_
    refine (mulf_apply _ _ _).trans ?_
    refine congrArg₂ (· * ·) ?_ ?_
    · exact ((bcast_ab1c_abnc _ _ b k r j).trans (cast_abc_ab1c _ _ b k 0 j)).trans (win_apply m b k j)
    · exact (bcast_11nc_abnc _ _ b k r j).trans (cast_ab_11ab x1 _ 0 0 r j)
  · exact (bcast_11n_abn _ _ b k r).trans (cast_a_11a x2 _ 0 0 r)

end Cert.KRow.Pre

namespace Cert.KRow
open Cert.KernelIdeal Cert.KernelIdeal.Gen

/-- The third payload at `(b, k, r)`: the first layer applied to window `k` of the mean of batch row `b`. -/
theorem pay3_apply (x0 : Vec Ideal S16x512x250 .f32) (x1 : Vec Ideal S2x50 .f32) (x2 : Vec Ideal S2 .f32)
    (b : Fin 16) (k : Fin 9) (r : Fin 2) :
    k0_pay3 (F := Ideal) x0 x1 x2 (ix3 b k r)
      = Cert.Gate.pre50 (Cert.Gate.mean (fun p t' => x0 (ix3 b p t'))) x1 x2 k r :=
  (Pre.pay3_mid x0 x1 x2 b k r).trans
    (congrArg (fun mn => Cert.Gate.pre50 mn x1 x2 k r) (funext fun t => pay2_apply x0 b t))

end Cert.KRow

end
-- ==== Proof.KerGate50.lean ====
/-
  The length-50 gate of the kernel body, read at one element.

  The body clips the first layer (16 rows, 9 windows, 2 hidden units) below at zero, spreads it over the 50 outputs,
  multiplies by the second layer's weights, sums over the two hidden units, adds the bias and applies the logistic
  function. At row b, window k, output j this is
      logistic (Σ_{r<2} max (h b k r) 0 · w2 j r + b2 j),
  the specification's gate50. Each layout step (a cast that inserts unit axes, a broadcast along them) reads one
  element of its operand, named here by its coordinates; the sum over the last axis is a sum over Fin 2.
-/
import proofs.«163309_j13271448944756_2_alg».proof.Proof.Spec
import proofs.«163309_j13271448944756_2_alg».proof.Proof.Gen.KernelIdeal.Skeleton
import Idealize.ShloMosaic.Lib.Pipeline.Value

noncomputable section
open Idealize.ShloMosaic Idealize.ShloMosaic.ValueIdx

namespace Cert.KRow.G4
open Cert.KernelIdeal Cert.KernelIdeal.Gen

/-- The length-50 gate as the kernel body computes it: clip the first layer below at zero, multiply by the second
    layer's weights, sum over the two hidden units, add the bias, apply the logistic function. -/
def g50v (v7 : Vec Ideal S50x2 .f32) (v8 : Vec Ideal S50 .f32) (v40 : FVec Ideal S16x9x2 .f32) : FVec Ideal S16x9x50 .f32 :=
  logistic (addf
    (multiReduction .add [3] S16x9x50
      (mulf
        (broadcastTo S16x9x50x2 (shapeCast S16x9x1x2 (maximumf v40 (broadcast S16x9x2 (Scalar.ofBits .f32 0x00000000#32)))
          shapeCasts_S16x9x2_S16x9x1x2) broadcasts_S16x9x1x2_S16x9x50x2)
        (broadcastTo S16x9x50x2 (shapeCast S1x1x50x2 v7 shapeCasts_S50x2_S1x1x50x2) broadcasts_S1x1x50x2_S16x9x50x2))
      0x00000000#32 reduces_S16x9x50x2_S16x9x50 (.inl rfl) rfl)
    (broadcastTo S16x9x50 (shapeCast S1x1x50 v8 shapeCasts_S50_S1x1x50) broadcasts_S1x1x50_S16x9x50))

theorem g50v_apply (v7 : Vec Ideal S50x2 .f32) (v8 : Vec Ideal S50 .f32) (v40 : FVec Ideal S16x9x2 .f32)
    (b : Fin 16) (k : Fin 9) (j : Fin 50) :
    g50v v7 v8 v40 (ix3 b k j) = Cert.Gate.gate50 (fun k r => v40 (ix3 b k r)) v7 v8 k j := by
  unfold g50v Cert.Gate.gate50
  show Ideal.logistic (_ + _) = Ideal.logistic (_ + _)
  refine congrArg Ideal.logistic (congrArg₂ (· + ·) ?_ ?_)
  · refine (Ideal.multiReduction_add_single _ 0x00000000#32 reduces_S16x9x50x2_S16x9x50 (.inl rfl) rfl (ix3 b k j)).trans ?_
    show ∑ r : Fin 2, _ = ∑ r : Fin 2, _
    refine Finset.sum_congr rfl fun r _ => ?_
    rw [mulf_apply]
    refine congrArg₂ (· * ·) ?_ ?_
    · refine (broadcastTo_apply _ broadcasts_S16x9x1x2_S16x9x50x2 _ (ix4 b k (0 : Fin 1) r) ?_).trans ?_
      · intro a
        match a with
        | ⟨0, _⟩ => rfl
        | ⟨1, _⟩ => rfl
        | ⟨2, _⟩ => rfl
        | ⟨3, _⟩ => rfl
      refine (shapeCast_apply _ shapeCasts_S16x9x2_S16x9x1x2 _ (ix3 b k r) ?_).trans ?_
      · rw [Shape.rowMajor_val_three, Shape.rowMajor_val_four]
        show ((b.val * 9 + k.val) * 2 + r.val) = (((b.val * 9 + k.val) * 1 + 0) * 2 + r.val)
        omega
      rw [maximumf_apply, broadcast_apply]
      exact congrArg (max (v40 (ix3 b k r))) Ideal.ofBits_zero_f32
    · refine (broadcastTo_apply _ broadcasts_S1x1x50x2_S16x9x50x2 _ (ix4 (0 : Fin 1) (0 : Fin 1) j r) ?_).trans ?_
      · intro a
        match a with
        | ⟨0, _⟩ => rfl
        | ⟨1, _⟩ => rfl
        | ⟨2, _⟩ => rfl
        | ⟨3, _⟩ => rfl
      refine shapeCast_apply _ shapeCasts_S50x2_S1x1x50x2 _ (ix2 j r) ?_
      rw [Shape.rowMajor_val_two, Shape.rowMajor_val_four]
      show (j.val * 2 + r.val) = (((0 * 1 + 0) * 50 + j.val) * 2 + r.val)
      omega
  · refine (broadcastTo_apply _ broadcasts_S1x1x50_S16x9x50 _ (ix3 (0 : Fin 1) (0 : Fin 1) j) ?_).trans ?_
    · intro a
      match a with
      | ⟨0, _⟩ => rfl
      | ⟨1, _⟩ => rfl
      | ⟨2, _⟩ => rfl
    refine shapeCast_apply _ shapeCasts_S50_S1x1x50 _ (ix1 j) ?_
    rw [Shape.rowMajor_val_one, Shape.rowMajor_val_three]
    show j.val = ((0 * 1 + 0) * 50 + j.val)
    omega

end Cert.KRow.G4
end
-- ==== Proof.KerGate25.lean ====
/-
  The length-25 gate of the kernel body, read at one element.

  On the trailing 25 time steps of the mean (steps 225 … 249) the body applies the same two layers with ONE hidden unit:
  the first layer is a sum over the 25 steps plus a bias, clipped below at zero; the second multiplies by a 25-vector of
  weights, sums over the single hidden unit (a sum over Fin 1, kept as such), adds the bias and applies the logistic
  function. At row b, output j this is the specification's gate25 of the row's mean. The layout steps (casts that insert
  or move unit axes, broadcasts along them, the slice at offset 225) each read one element of their operand.
-/
import proofs.«163309_j13271448944756_2_alg».proof.Proof.Spec
import proofs.«163309_j13271448944756_2_alg».proof.Proof.Gen.KernelIdeal.Skeleton
import Idealize.ShloMosaic.Lib.Pipeline.Value

noncomputable section
open Idealize.ShloMosaic Idealize.ShloMosaic.ValueIdx

namespace Cert.KRow.G4
open Cert.KernelIdeal Cert.KernelIdeal.Gen

/-- The length-25 gate as the kernel body computes it, on the trailing 25 time steps of the mean, with one hidden unit. -/
def g25v (v4 : FVec Ideal S16x250 .f32) (v9 : Vec Ideal S1x25 .f32) (v10 : Vec Ideal S1 .f32) (v11 : Vec Ideal S25x1 .f32)
    (v12 : Vec Ideal S25 .f32) : FVec Ideal S16x25 .f32 :=
  logistic (addf
    (multiReduction .add [2] S16x25
      (mulf
        (broadcastTo S16x25x1 (shapeCast S16x1x1
          (maximumf
            (addf
              (multiReduction .add [2] S16x1
                (mulf (shapeCast S16x1x25 (extractStridedSlice S16x25 ![0, 225] v4 slices_S16x250_o0_225_S16x25) shapeCasts_S16x25_S16x1x25)
                  (broadcastTo S16x1x25 (shapeCast S1x1x25 v9 shapeCasts_S1x25_S1x1x25) broadcasts_S1x1x25_S16x1x25))
                0x00000000#32 reduces_S16x1x25_S16x1 (.inl rfl) rfl)
              (broadcastTo S16x1 (shapeCast S1x1 v10 shapeCasts_S1_S1x1) broadcasts_S1x1_S16x1))
            (broadcast S16x1 (Scalar.ofBits .f32 0x00000000#32)))
          shapeCasts_S16x1_S16x1x1) broadcasts_S16x1x1_S16x25x1)
        (broadcastTo S16x25x1 (shapeCast S1x25x1 v11 shapeCasts_S25x1_S1x25x1) broadcasts_S1x25x1_S16x25x1))
      0x00000000#32 reduces_S16x25x1_S16x25 (.inl rfl) rfl)
    (broadcastTo S16x25 (shapeCast S1x25 v12 shapeCasts_S25_S1x25) broadcasts_S1x25_S16x25))

theorem g25v_apply (v4 : FVec Ideal S16x250 .f32) (v9 : Vec Ideal S1x25 .f32) (v10 : Vec Ideal S1 .f32)
    (v11 : Vec Ideal S25x1 .f32) (v12 : Vec Ideal S25 .f32) (b : Fin 16) (j : Fin 25) :
    g25v v4 v9 v10 v11 v12 (ix2 b j)
      = Cert.Gate.gate25 (fun t' => v4 (ix2 b t')) v9 v10 v11 v12 j := by
  unfold g25v Cert.Gate.gate25
  show Ideal.logistic (_ + _) = Ideal.logistic (_ + _)
  refine congrArg Ideal.logistic (congrArg₂ (· + ·) ?_ ?_)
  · refine (Ideal.multiReduction_add_single _ 0x00000000#32 reduces_S16x25x1_S16x25 (.inl rfl) rfl (ix2 b j)).trans ?_
    show ∑ r : Fin 1, _ = ∑ r : Fin 1, _
    refine Finset.sum_congr rfl fun r _ => ?_
    rw [mulf_apply]
    refine congrArg₂ (· * ·) ?_ ?_
    · refine (broadcastTo_apply _ broadcasts_S16x1x1_S16x25x1 _ (ix3 b (0 : Fin 1) (0 : Fin 1)) ?_).trans ?_
      · intro a
        match a with
        | ⟨0, _⟩ => rfl
        | ⟨1, _⟩ => rfl
        | ⟨2, _⟩ => rfl
      refine (shapeCast_apply _ shapeCasts_S16x1_S16x1x1 _ (ix2 b (0 : Fin 1)) ?_).trans ?_
      · rw [Shape.rowMajor_val_two, Shape.rowMajor_val_three]
        show (b.val * 1 + 0) = ((b.val * 1 + 0) * 1 + 0)
        omega
      rw [maximumf_apply, broadcast_apply, addf_apply]
      refine congrArg₂ max (congrArg₂ (· + ·) ?_ ?_) Ideal.ofBits_zero_f32
      · refine (Ideal.multiReduction_add_single _ 0x00000000#32 reduces_S16x1x25_S16x1 (.inl rfl) rfl (ix2 b (0 : Fin 1))).trans ?_
        show ∑ i : Fin 25, _ = ∑ i : Fin 25, _
        refine Finset.sum_congr rfl fun i _ => ?_
        rw [mulf_apply]
        refine congrArg₂ (· * ·) ?_ ?_
        · refine (shapeCast_apply _ shapeCasts_S16x25_S16x1x25 _ (ix2 b i) ?_).trans ?_
          · rw [Shape.rowMajor_val_two, Shape.rowMajor_val_three]
            show (b.val * 25 + i.val) = ((b.val * 1 + 0) * 25 + i.val)
            omega
          refine extractStridedSlice_apply _ v4 slices_S16x250_o0_225_S16x25 _ (ix2 b (Cert.Gate.tailIdx i)) ?_
          intro a
          match a with
          | ⟨0, _⟩ => show b.val = 0 + b.val; omega
          | ⟨1, _⟩ => rfl
        · refine (broadcastTo_apply _ broadcasts_S1x1x25_S16x1x25 _ (ix3 (0 : Fin 1) (0 : Fin 1) i) ?_).trans ?_
          · intro a
            match a with
            | ⟨0, _⟩ => rfl
            | ⟨1, _⟩ => rfl
            | ⟨2, _⟩ => rfl
          refine shapeCast_apply _ shapeCasts_S1x25_S1x1x25 _ (ix2 (0 : Fin 1) i) ?_
          rw [Shape.rowMajor_val_two, Shape.rowMajor_val_three]
          show (0 * 25 + i.val) = ((0 * 1 + 0) * 25 + i.val)
          omega
      · refine (broadcastTo_apply _ broadcasts_S1x1_S16x1 _ (ix2 (0 : Fin 1) (0 : Fin 1)) ?_).trans ?_
        · intro a
          match a with
          | ⟨0, _⟩ => rfl
          | ⟨1, _⟩ => rfl
        refine shapeCast_apply _ shapeCasts_S1_S1x1 _ (ix1 (0 : Fin 1)) ?_
        rw [Shape.rowMajor_val_one, Shape.rowMajor_val_two]
        show 0 = 0 * 1 + 0
        omega
    · refine (broadcastTo_apply _ broadcasts_S1x25x1_S16x25x1 _ (ix3 (0 : Fin 1) j (0 : Fin 1)) ?_).trans ?_
      · intro a
        match a with
        | ⟨0, _⟩ => rfl
        | ⟨1, _⟩ => rfl
        | ⟨2, _⟩ => rfl
      refine shapeCast_apply _ shapeCasts_S25x1_S1x25x1 _ (ix2 j r) ?_
      rw [Shape.rowMajor_val_two, Shape.rowMajor_val_three]
      show (j.val * 1 + r.val) = ((0 * 25 + j.val) * 1 + 0)
      have := r.isLt
      omega
  · refine (broadcastTo_apply _ broadcasts_S1x25_S16x25 _ (ix2 (0 : Fin 1) j) ?_).trans ?_
    · intro a
      match a with
      | ⟨0, _⟩ => rfl
      | ⟨1, _⟩ => rfl
    refine shapeCast_apply _ shapeCasts_S25_S1x25 _ (ix1 j) ?_
    rw [Shape.rowMajor_val_one, Shape.rowMajor_val_two]
    show j.val = 0 * 25 + j.val
    omega

end Cert.KRow.G4
end
-- ==== Proof.KerGate.lean ====
/-
  The kernel body's last value, read at one element: the block times the weight of the time step.

  From the length-50 gate g (16 rows, 9 windows of 50) and the length-25 gate q (16 rows of 25) the body forms ten
  segments of 25 weights per row by overlap-add: segment 0 is the first half of window 0; for 1 ≤ s ≤ 8 segment s is
  (second half of window s-1 + first half of window s) · ½; segment 9 is (second half of window 8 + q) · ½. The
  three pieces (1, 8 and 1 segments) are laid end to end along the segment axis, the result is read flat (time step t
  is segment t / 25 at t % 25), repeated over the 512 pipelines and multiplied into the block. So the value at
  (b, p, t) is the block at (b, p, t) times the specification's weightOf of the row's two gates at t.
-/
import proofs.«163309_j13271448944756_2_alg».proof.Proof.Spec
import proofs.«163309_j13271448944756_2_alg».proof.Proof.Gen.KernelIdeal.Skeleton
import Idealize.ShloMosaic.Lib.Pipeline.Value
import proofs.«163309_j13271448944756_2_alg».proof.Proof.KerGate50
import proofs.«163309_j13271448944756_2_alg».proof.Proof.KerGate25
noncomputable section
open Idealize.ShloMosaic Idealize.ShloMosaic.ValueIdx

namespace Cert.KRow.G4
open Cert.KernelIdeal Cert.KernelIdeal.Gen

/-- The three pieces laid end to end along the segment axis: the first half of window 0 (one segment); for segments
    1 … 8 the mean of the second half of the window before and the first half of the window itself (eight segments);
    the mean of the second half of window 8 and the length-25 gate (one segment). -/
abbrev segs (g : FVec Ideal S16x9x50 .f32) (q : FVec Ideal S16x25 .f32) : List ((s : Shape) × FVec Ideal s .f32) :=
  [⟨S16x1x25, extractStridedSlice S16x1x25 ![0, 0, 0]
      (extractStridedSlice S16x9x25 ![0, 0, 0] g slices_S16x9x50_o0_0_0_S16x9x25) slices_S16x9x25_o0_0_0_S16x1x25⟩,
   ⟨S16x8x25, mulf
      (addf
        (extractStridedSlice S16x8x25 ![0, 0, 0]
          (extractStridedSlice S16x9x25 ![0, 0, 25] g slices_S16x9x50_o0_0_25_S16x9x25) slices_S16x9x25_o0_0_0_S16x8x25)
        (extractStridedSlice S16x8x25 ![0, 1, 0]
          (extractStridedSlice S16x9x25 ![0, 0, 0] g slices_S16x9x50_o0_0_0_S16x9x25) slices_S16x9x25_o0_1_0_S16x8x25))
      (broadcast S16x8x25 (Scalar.ofBits .f32 0x3F000000#32))⟩,
   ⟨S16x1x25, shapeCast S16x1x25
      (mulf
        (addf
          (shapeCast S16x25
            (extractStridedSlice S16x1x25 ![0, 8, 0]
              (extractStridedSlice S16x9x25 ![0, 0, 25] g slices_S16x9x50_o0_0_25_S16x9x25) slices_S16x9x25_o0_8_0_S16x1x25)
            shapeCasts_S16x1x25_S16x25)
          q)
        (broadcast S16x25 (Scalar.ofBits .f32 0x3F000000#32)))
      shapeCasts_S16x25_S16x1x25⟩]

/-- The ten segments of 25 weights each, from the two gates. -/
def catv (g : FVec Ideal S16x9x50 .f32) (q : FVec Ideal S16x25 .f32) : FVec Ideal S16x10x25 .f32 :=
  concatenate S16x10x25 1 (segs g q) concatenates_S16x1x25_S16x8x25_S16x1x25_S16x10x25_d1

/-- The first half of a window: the slice [:, :, :25] of the gate read at (b, k, j) is the gate at (b, k, j). -/
theorem left_apply (g : FVec Ideal S16x9x50 .f32) (b : Fin 16) (k : Fin 9) (j : Fin 25) :
    extractStridedSlice S16x9x25 ![0, 0, 0] g slices_S16x9x50_o0_0_0_S16x9x25 (ix3 b k j)
      = g (ix3 b k (⟨j.val, by omega⟩ : Fin 50)) := by
  refine extractStridedSlice_apply _ g slices_S16x9x50_o0_0_0_S16x9x25 _ (ix3 b k (⟨j.val, by omega⟩ : Fin 50)) ?_
  intro a
  match a with
  | ⟨0, _⟩ => show b.val = 0 + b.val; omega
  | ⟨1, _⟩ => show k.val = 0 + k.val; omega
  | ⟨2, _⟩ => show j.val = 0 + j.val; omega

/-- The second half of a window: the slice [:, :, 25:] of the gate read at (b, k, j) is the gate at (b, k, 25 + j). -/
theorem right_apply (g : FVec Ideal S16x9x50 .f32) (b : Fin 16) (k : Fin 9) (j : Fin 25) :
    extractStridedSlice S16x9x25 ![0, 0, 25] g slices_S16x9x50_o0_0_25_S16x9x25 (ix3 b k j)
      = g (ix3 b k (⟨25 + j.val, by omega⟩ : Fin 50)) := by
  refine extractStridedSlice_apply _ g slices_S16x9x50_o0_0_25_S16x9x25 _ (ix3 b k (⟨25 + j.val, by omega⟩ : Fin 50)) ?_
  intro a
  match a with
  | ⟨0, _⟩ => show b.val = 0 + b.val; omega
  | ⟨1, _⟩ => show k.val = 0 + k.val; omega
  | ⟨2, _⟩ => rfl

/-- The ten segments read at (b, s, j) are the specification's seg of the row's two gates. -/
theorem catv_apply (g : FVec Ideal S16x9x50 .f32) (q : FVec Ideal S16x25 .f32) (b : Fin 16) (s : Fin 10) (j : Fin 25) :
    catv g q (ix3 b s j) = Cert.Gate.seg (fun k j' => g (ix3 b k j')) (fun j' => q (ix2 b j')) s j := by
  unfold catv Cert.Gate.seg
  by_cases h0 : s.val = 0
  · rw [if_pos h0]
    refine (concatenate_apply_piece (t := S16x10x25) (1 : Fin 3) (segs g q) concatenates_S16x1x25_S16x8x25_S16x1x25_S16x10x25_d1 (ix3 b s j)
      0 (by show 0 < 3; omega) S16x1x25 _ rfl rfl 0 rfl (ix3 b (0 : Fin 1) j) ?_ ?_).trans ?_
    · intro a ha
      match a with
      | ⟨0, _⟩ => rfl
      | ⟨1, _⟩ => exact absurd rfl ha
      | ⟨2, _⟩ => rfl
    · show 0 + 0 = s.val
      omega
    refine (extractStridedSlice_apply _ _ slices_S16x9x25_o0_0_0_S16x1x25 _ (ix3 b (⟨0, by omega⟩ : Fin 9) j) ?_).trans ?_
    · intro a
      match a with
      | ⟨0, _⟩ => show b.val = 0 + b.val; omega
      | ⟨1, _⟩ => rfl
      | ⟨2, _⟩ => show j.val = 0 + j.val; omega
    exact left_apply g b _ j
  · rw [if_neg h0]
    by_cases h9 : s.val < 9
    · rw [dif_pos h9]
      refine (concatenate_apply_piece (t := S16x10x25) (1 : Fin 3) (segs g q) concatenates_S16x1x25_S16x8x25_S16x1x25_S16x10x25_d1 (ix3 b s j)
        1 (by show 1 < 3; omega) S16x8x25 _ rfl rfl 1 rfl (ix3 b (⟨s.val - 1, by omega⟩ : Fin 8) j) ?_ ?_).trans ?_
      · intro a ha
        match a with
        | ⟨0, _⟩ => rfl
        | ⟨1, _⟩ => exact absurd rfl ha
        | ⟨2, _⟩ => rfl
      · show 1 + (s.val - 1) = s.val
        omega
      rw [mulf_apply, addf_apply, broadcast_apply]
      refine congrArg₂ (· * ·) (congrArg₂ (· + ·) ?_ ?_) rfl
      · refine (extractStridedSlice_apply _ _ slices_S16x9x25_o0_0_0_S16x8x25 _
          (ix3 b (⟨s.val - 1, by omega⟩ : Fin 9) j) ?_).trans ?_
        · intro a
          match a with
          | ⟨0, _⟩ => show b.val = 0 + b.val; omega
          | ⟨1, _⟩ => show s.val - 1 = 0 + (s.val - 1); omega
          | ⟨2, _⟩ => show j.val = 0 + j.val; omega
        exact right_apply g b _ j
      · refine (extractStridedSlice_apply _ _ slices_S16x9x25_o0_1_0_S16x8x25 _
          (ix3 b (⟨s.val, h9⟩ : Fin 9) j) ?_).trans ?_
        · intro a
          match a with
          | ⟨0, _⟩ => show b.val = 0 + b.val; omega
          | ⟨1, _⟩ => show s.val = 1 + (s.val - 1); omega
          | ⟨2, _⟩ => show j.val = 0 + j.val; omega
        exact left_apply g b _ j
    · rw [dif_neg h9]
      refine (concatenate_apply_piece (t := S16x10x25) (1 : Fin 3) (segs g q) concatenates_S16x1x25_S16x8x25_S16x1x25_S16x10x25_d1 (ix3 b s j)
        2 (by show 2 < 3; omega) S16x1x25 _ rfl rfl 9 rfl (ix3 b (0 : Fin 1) j) ?_ ?_).trans ?_
      · intro a ha
        match a with
        | ⟨0, _⟩ => rfl
        | ⟨1, _⟩ => exact absurd rfl ha
        | ⟨2, _⟩ => rfl
      · show 9 + 0 = s.val
        have := s.isLt
        omega
      refine (shapeCast_apply _ shapeCasts_S16x25_S16x1x25 _ (ix2 b j) ?_).trans ?_
      · rw [Shape.rowMajor_val_two, Shape.rowMajor_val_three]
        show (b.val * 25 + j.val) = ((b.val * 1 + 0) * 25 + j.val)
        omega
      rw [mulf_apply, addf_apply, broadcast_apply]
      refine congrArg₂ (· * ·) (congrArg₂ (· + ·) ?_ rfl) rfl
      refine (shapeCast_apply _ shapeCasts_S16x1x25_S16x25 _ (ix3 b (0 : Fin 1) j) ?_).trans ?_
      · rw [Shape.rowMajor_val_two, Shape.rowMajor_val_three]
        show ((b.val * 1 + 0) * 25 + j.val) = (b.val * 25 + j.val)
        omega
      refine (extractStridedSlice_apply _ _ slices_S16x9x25_o0_8_0_S16x1x25 _ (ix3 b (⟨8, by omega⟩ : Fin 9) j) ?_).trans ?_
      · intro a
        match a with
        | ⟨0, _⟩ => show b.val = 0 + b.val; omega
        | ⟨1, _⟩ => rfl
        | ⟨2, _⟩ => show j.val = 0 + j.val; omega
      exact right_apply g b _ j

/-- The weights laid out flat: 250 per row. -/
def wv (g : FVec Ideal S16x9x50 .f32) (q : FVec Ideal S16x25 .f32) : FVec Ideal S16x250 .f32 :=
  shapeCast S16x250 (catv g q) shapeCasts_S16x10x25_S16x250

/-- Time step t is segment t / 25 at t % 25. -/
theorem wv_apply (g : FVec Ideal S16x9x50 .f32) (q : FVec Ideal S16x25 .f32) (b : Fin 16) (t : Fin 250) :
    wv g q (ix2 b t) = Cert.Gate.weightOf (fun k j' => g (ix3 b k j')) (fun j' => q (ix2 b j')) t := by
  unfold wv Cert.Gate.weightOf
  refine (shapeCast_apply _ shapeCasts_S16x10x25_S16x250 _
    (ix3 b (⟨t.val / 25, by omega⟩ : Fin 10) (⟨t.val % 25, by omega⟩ : Fin 25)) ?_).trans ?_
  · rw [Shape.rowMajor_val_two, Shape.rowMajor_val_three]
    show ((b.val * 10 + t.val / 25) * 25 + t.val % 25) = (b.val * 250 + t.val)
    omega
  exact catv_apply g q b _ _

/-- The body's last value is the block times the flat weights, repeated over the pipelines: the generated term, regrouped. -/
theorem pay4_eq (v1 : FVec Ideal S16x512x250 .f32) (v4 : FVec Ideal S16x250 .f32) (v7 : Vec Ideal S50x2 .f32)
    (v8 : Vec Ideal S50 .f32) (v9 : Vec Ideal S1x25 .f32) (v10 : Vec Ideal S1 .f32) (v11 : Vec Ideal S25x1 .f32)
    (v12 : Vec Ideal S25 .f32) (v40 : FVec Ideal S16x9x2 .f32) :
    k0_pay4 (F := Ideal) v1 v4 v7 v8 v9 v10 v11 v12 v40
      = mulf v1 (broadcastTo S16x512x250 (shapeCast S16x1x250 (wv (g50v v7 v8 v40) (g25v v4 v9 v10 v11 v12))
          shapeCasts_S16x250_S16x1x250) broadcasts_S16x1x250_S16x512x250) := rfl

end Cert.KRow.G4

namespace Cert.KRow
open Cert.KernelIdeal Cert.KernelIdeal.Gen

theorem pay4_apply (v1 : FVec Ideal S16x512x250 .f32) (v4 : FVec Ideal S16x250 .f32) (v7 : Vec Ideal S50x2 .f32)
    (v8 : Vec Ideal S50 .f32) (v9 : Vec Ideal S1x25 .f32) (v10 : Vec Ideal S1 .f32) (v11 : Vec Ideal S25x1 .f32)
    (v12 : Vec Ideal S25 .f32) (v40 : FVec Ideal S16x9x2 .f32) (b : Fin 16) (p : Fin 512) (t : Fin 250) :
    k0_pay4 (F := Ideal) v1 v4 v7 v8 v9 v10 v11 v12 v40 (ix3 b p t)
      = v1 (ix3 b p t) * Cert.Gate.weightOf (Cert.Gate.gate50 (fun k r => v40 (ix3 b k r)) v7 v8)
          (Cert.Gate.gate25 (fun t' => v4 (ix2 b t')) v9 v10 v11 v12) t := by
  rw [G4.pay4_eq v1 v4 v7 v8 v9 v10 v11 v12 v40, mulf_apply]
  refine congrArg (v1 (ix3 b p t) * ·) ?_
  refine (broadcastTo_apply _ broadcasts_S16x1x250_S16x512x250 _ (ix3 b (0 : Fin 1) t) ?_).trans ?_
  · intro a
    match a with
    | ⟨0, _⟩ => rfl
    | ⟨1, _⟩ => rfl
    | ⟨2, _⟩ => rfl
  refine (shapeCast_apply _ shapeCasts_S16x250_S16x1x250 _ (ix2 b t) ?_).trans ?_
  · rw [Shape.rowMajor_val_two, Shape.rowMajor_val_three]
    show (b.val * 250 + t.val) = ((b.val * 1 + 0) * 250 + t.val)
    omega
  refine (G4.wv_apply _ _ b t).trans ?_
  exact congrArg₂ (fun g50 g25 => Cert.Gate.weightOf g50 g25 t)
    (funext fun k => funext fun j' => G4.g50v_apply v7 v8 v40 b k j')
    (funext fun j' => G4.g25v_apply v4 v9 v10 v11 v12 b j')

end Cert.KRow
end
-- ==== Proof.KerRow.lean ====
/-
  The kernel body's one store, read at an entry (b, p, t) of the [16,512,250] output block: row `b` of the input
  block scaled by that row's weights. The body's value is cut into four named terms — the block itself, its mean over
  the pipelines, the first layer on the nine windows, and everything after — each read at an entry in its own module;
  here they are composed.
-/
import proofs.«163309_j13271448944756_2_alg».proof.Proof.Spec
import proofs.«163309_j13271448944756_2_alg».proof.Proof.KerPre
import proofs.«163309_j13271448944756_2_alg».proof.Proof.KerGate
import proofs.«163309_j13271448944756_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx

namespace Cert.KRow
open Cert.KernelIdeal Cert.KernelIdeal.Gen

/-- The first named term is the loaded block itself: a cast to its own shape. -/
theorem pay1_eq (x0 : Vec Ideal S16x512x250 .f32) : k0_pay1 (F := Ideal) x0 = x0 := by
  unfold k0_pay1
  exact shapeCast_self x0 _

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, at entry (b, p, t). -/
theorem out_apply (x0 : Vec Ideal S16x512x250 .f32) (x1 : Vec Ideal S2x50 .f32) (x2 : Vec Ideal S2 .f32)
    (x3 : Vec Ideal S50x2 .f32) (x4 : Vec Ideal S50 .f32) (x5 : Vec Ideal S1x25 .f32) (x6 : Vec Ideal S1 .f32)
    (x7 : Vec Ideal S25x1 .f32) (x8 : Vec Ideal S25 .f32) (b : Fin 16) (p : Fin 512) (t : Fin 250) :
    out0_9 (F := Ideal) x0 x1 x2 x3 x4 x5 x6 x7 x8 (ix3 b p t)
      = Cert.Gate.scaled (fun p' t' => x0 (ix3 b p' t')) x1 x2 x3 x4 x5 x6 x7 x8 p t := by
  unfold out0_9
  rw [View.canon_unit_zero hz3]
  simp only [View.ld_unit_zero (S := S16x512x250) hz3, View.ld_unit_zero (S := S2x50) hz2, View.ld_unit_zero (S := S2) hz1,
    View.ld_unit_zero (S := S50x2) hz2, View.ld_unit_zero (S := S50) hz1, View.ld_unit_zero (S := S1x25) hz2,
    View.ld_unit_zero (S := S1) hz1, View.ld_unit_zero (S := S25x1) hz2, View.ld_unit_zero (S := S25) hz1]
  rw [pay4_apply, pay1_eq]
  have e2 : (fun t' => k0_pay2 (F := Ideal) x0 (ix2 b t')) = Cert.Gate.mean (fun p' t' => x0 (ix3 b p' t')) :=
    funext fun t' => pay2_apply x0 b t'
  have e3 : (fun k r => k0_pay3 (F := Ideal) x0 x1 x2 (ix3 b k r))
      = Cert.Gate.pre50 (Cert.Gate.mean (fun p' t' => x0 (ix3 b p' t'))) x1 x2 :=
    funext fun k => funext fun r => pay3_apply x0 x1 x2 b k r
  rw [e2, e3]
  rfl

end Cert.KRow

end
-- ==== Proof.KerArray.lean ====
/-
  From blocks to the array. The kernel runs at sixteen grid points; point `t` reads rows 16t … 16t + 15 of the
  [256,512,250] input (all 512 pipelines, all 250 time steps) and the eight parameter arrays whole, and writes back rows
  16t … 16t + 15 of the output. Each output row depends only on the same input row and the parameters, so what point
  `t` writes back is block `t` of ONE function of the arrays (`rows`), the sixteen blocks tile the output, and the
  output array ends holding that function.
-/
import proofs.«163309_j13271448944756_2_alg».proof.Proof.KerRow
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RowValue
open Cert.KernelIdeal Cert.KernelIdeal.Gen

variable (m : (ℓ : Loc nD τ sig) → Buf (Elt Ideal) ℓ)

/-- The output array [256,512,250] as a function of the input array [256,512,250] and the parameters: entry (b, p, t)
    is row `b`'s entry (p, t) times the weight of time step `t` of row `b`. -/
def rows (X : S256x512x250.Idx → EReal) (a1 : S2x50.Idx → EReal) (a2 : S2.Idx → EReal) (a3 : S50x2.Idx → EReal)
    (a4 : S50.Idx → EReal) (a5 : S1x25.Idx → EReal) (a6 : S1.Idx → EReal) (a7 : S25x1.Idx → EReal) (a8 : S25.Idx → EReal) :
    S256x512x250.Idx → EReal :=
  fun i => Cert.Gate.scaled (fun p t' => X (ix3 (i 0) p t')) a1 a2 a3 a4 a5 a6 a7 a8 (i 1) (i 2)

/-- The printed index maps, decided over the sixteen grid points: the input's and the output's block index is the
    point on the row axis and zero on the others; every parameter's block index is zero. -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! A parameter's block at any point is the whole parameter array. -/

theorem iblk1 (c : Dev nD) (t : Fin cfg0.N) : (iblk m c 1 t : S2x50.Idx → EReal) = V m c main_arg1 := by
  have hf := idx_facts t
  funext y
  show V m c main_arg1 (((cfg0.win 1).blk t).view.emb y) = V m c main_arg1 y
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 50 + 1 * (y 1).val = (y 1).val; omega

theorem iblk2 (c : Dev nD) (t : Fin cfg0.N) : (iblk m c 2 t : S2.Idx → EReal) = V m c main_arg2 := by
  have hf := idx_facts t
  funext y
  show V m c main_arg2 (((cfg0.win 2).blk t).view.emb y) = V m c main_arg2 y
  refine congrArg _ (funext fun a => Fin.ext ?_)
  match a with
  | ⟨0, _⟩ => show win0_2.index t (0 : Fin 1) * 2 + 1 * (y 0).val = (y 0).val; omega

theorem iblk3 (c : Dev nD) (t : Fin cfg0.N) : (iblk m c 3 t : S50x2.Idx → EReal) = V m c main_arg3 := by
  have hf := idx_facts t
  funext y
  show V m c main_arg3 (((cfg0.win 3).blk t).view.emb y) = V m c main_arg3 y
  refine congrArg _ (funext fun a => Fin.ext ?_)
  match a with
  | ⟨0, _⟩ => show win0_3.index t (0 : Fin 2) * 50 + 1 * (y 0).val = (y 0).val; omega
  | ⟨1, _⟩ => show win0_3.index t (1 : Fin 2) * 2 + 1 * (y 1).val = (y 1).val; omega

theorem iblk4 (c : Dev nD) (t : Fin cfg0.N) : (iblk m c 4 t : S50.Idx → EReal) = V m c main_arg4 := by
  have hf := idx_facts t
  funext y
  show V m c main_arg4 (((cfg0.win 4).blk t).view.emb y) = V m c main_arg4 y
  refine congrArg _ (funext fun a => Fin.ext ?_)
  match a with
  | ⟨0, _⟩ => show win0_4.index t (0 : Fin 1) * 50 + 1 * (y 0).val = (y 0).val; omega

theorem iblk5 (c : Dev nD) (t : Fin cfg0.N) : (iblk m c 5 t : S1x25.Idx → EReal) = V m c main_arg5 := by
  have hf := idx_facts t
  funext y
  show V m c main_arg5 (((cfg0.win 5).blk t).view.emb y) = V m c main_arg5 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 25 + 1 * (y 1).val = (y 1).val; omega

theorem iblk6 (c : Dev nD) (t : Fin cfg0.N) : (iblk m c 6 t : S1.Idx → EReal) = V m c main_arg6 := by
  have hf := idx_facts t
  funext y
  show V m c main_arg6 (((cfg0.win 6).blk t).view.emb y) = V m c main_arg6 y
  refine congrArg _ (funext fun a => Fin.ext ?_)
  match a with
  | ⟨0, _⟩ => show win0_6.index t (0 : Fin 1) * 1 + 1 * (y 0).val = (y 0).val; omega

theorem iblk7 (c : Dev nD) (t : Fin cfg0.N) : (iblk m c 7 t : S25x1.Idx → EReal) = V m c main_arg7 := by
  have hf := idx_facts t
  funext y
  show V m c main_arg7 (((cfg0.win 7).blk t).view.emb y) = V m c main_arg7 y
  refine congrArg _ (funext fun a => Fin.ext ?_)
  match a with
  | ⟨0, _⟩ => show win0_7.index t (0 : Fin 2) * 25 + 1 * (y 0).val = (y 0).val; omega
  | ⟨1, _⟩ => show win0_7.index t (1 : Fin 2) * 1 + 1 * (y 1).val = (y 1).val; omega

theorem iblk8 (c : Dev nD) (t : Fin cfg0.N) : (iblk m c 8 t : S25.Idx → EReal) = V m c main_arg8 := by
  have hf := idx_facts t
  funext y
  show V m c main_arg8 (((cfg0.win 8).blk t).view.emb y) = V m c main_arg8 y
  refine congrArg _ (funext fun a => Fin.ext ?_)
  match a with
  | ⟨0, _⟩ => show win0_8.index t (0 : Fin 1) * 25 + 1 * (y 0).val = (y 0).val; omega

/-- `scaled` of equal arguments. -/
theorem scaled_congr {xr xr' : Fin 512 → Fin 250 → EReal} {a1 a1' : S2x50.Idx → EReal} {a2 a2' : S2.Idx → EReal}
    {a3 a3' : S50x2.Idx → EReal} {a4 a4' : S50.Idx → EReal} {a5 a5' : S1x25.Idx → EReal} {a6 a6' : S1.Idx → EReal}
    {a7 a7' : S25x1.Idx → EReal} {a8 a8' : S25.Idx → EReal} {p p' : Fin 512} {q q' : Fin 250}
    (h0 : xr = xr') (h1 : a1 = a1') (h2 : a2 = a2') (h3 : a3 = a3') (h4 : a4 = a4') (h5 : a5 = a5') (h6 : a6 = a6')
    (h7 : a7 = a7') (h8 : a8 = a8') (hp : p = p') (hq : q = q') :
    Cert.Gate.scaled xr a1 a2 a3 a4 a5 a6 a7 a8 p q = Cert.Gate.scaled xr' a1' a2' a3' a4' a5' a6' a7' a8' p' q' := by
  subst h0 h1 h2 h3 h4 h5 h6 h7 h8 hp hq; rfl

/-- What point `t` writes back is block `t` of `rows` of the arrays as the region finds them: entry (y₀, p, q) of the
    block is row 16t + y₀ of the array, on both sides. -/
theorem flushed_eq (c : Dev nD) (t : Fin cfg0.N) :
    (dats m 0 c).flushed 9 t = ((cfg0.win 9).blk t).view.read (Elt Ideal)
      (rows (V m c main_v0) (V m c main_arg1) (V m c main_arg2) (V m c main_arg3) (V m c main_arg4) (V m c main_arg5)
        (V m c main_arg6) (V m c main_arg7) (V m c main_arg8)) := by
  show (cfg0.win 9).cut (grid0.coords t) ((dats m 0 c).after 9 t) = _
  rw [after0_9]
  obtain ⟨e00, e01, e02, e90, e91, e92, -⟩ := idx_facts t
  funext j
  show out0_9 (F := Ideal) (iblk m c 0 t) (iblk m c 1 t) (iblk m c 2 t) (iblk m c 3 t) (iblk m c 4 t) (iblk m c 5 t) (iblk m c 6 t)
        (iblk m c 7 t) (iblk m c 8 t) j
      = rows (V m c main_v0) (V m c main_arg1) (V m c main_arg2) (V m c main_arg3) (V m c main_arg4) (V m c main_arg5)
        (V m c main_arg6) (V m c main_arg7) (V m c main_arg8) (((cfg0.win 9).blk t).view.emb j)
  refine (congrArg (out0_9 (F := Ideal) (iblk m c 0 t) (iblk m c 1 t) (iblk m c 2 t) (iblk m c 3 t) (iblk m c 4 t) (iblk m c 5 t)
    (iblk m c 6 t) (iblk m c 7 t) (iblk m c 8 t)) (eq_ix3 (j : S16x512x250.Idx))).trans ?_
  refine (Cert.KRow.out_apply (iblk m c 0 t) (iblk m c 1 t) (iblk m c 2 t) (iblk m c 3 t) (iblk m c 4 t) (iblk m c 5 t)
    (iblk m c 6 t) (iblk m c 7 t) (iblk m c 8 t) (j 0) (j 1) (j 2)).trans ?_
  unfold rows
  refine scaled_congr ?_ (iblk1 m c t) (iblk2 m c t) (iblk3 m c t) (iblk4 m c t) (iblk5 m c t) (iblk6 m c t) (iblk7 m c t)
    (iblk8 m c t) ?_ ?_
  · funext p q
    show V m c main_v0 (((cfg0.win 0).blk t).view.emb (ix3 (j 0) p q)) = V m c main_v0 (ix3 ((((cfg0.win 9).blk t).view.emb j) 0) p q)
    refine congrArg _ (funext fun a => Fin.ext ?_)
    match a with
    | ⟨0, _⟩ => show win0_0.index t (0 : Fin 3) * 16 + 1 * (j 0).val = win0_9.index t (0 : Fin 3) * 16 + 1 * (j 0).val; omega
    | ⟨1, _⟩ => show win0_0.index t (1 : Fin 3) * 512 + 1 * p.val = p.val; omega
    | ⟨2, _⟩ => show win0_0.index t (2 : Fin 3) * 250 + 1 * q.val = q.val; omega
  · apply Fin.ext; show (j 1).val = win0_9.index t (1 : Fin 3) * 512 + 1 * (j 1).val; omega
  · apply Fin.ext; show (j 2).val = win0_9.index t (2 : Fin 3) * 250 + 1 * (j 2).val; omega

/-- An index of the output array is in point `t`'s block iff each coordinate is in the block's range on its axis. -/
theorem mem_blk (t : Fin cfg0.N) (i : S256x512x250.Idx) :
    i ∈ ((cfg0.win 9).blk t).view.set ↔ ∀ a : Fin 3, win0_9.index t a * S16x512x250.size a ≤ (i a).val ∧ (i a).val < win0_9.index t a * S16x512x250.size a + S16x512x250.size a := by
  show i ∈ ((View.whole main_v1).slice (win0_9.rect t)).set ↔ _
  rw [View.set_slice_whole, Rect.mem_set_unit]
  exact Iff.rfl

/-- Row `b` of the output is written back by point `b / 16`: the sixteen blocks tile the array. -/
theorem cover (i : S256x512x250.Idx) : ∃ t : Fin cfg0.N, (cfg0.win 9).flush t = true ∧ i ∈ ((cfg0.win 9).blk t).view.set := by
  have hi0 : (i 0).val < 256 := (i 0).isLt
  have hi1 : (i 1).val < 512 := (i 1).isLt
  have hi2 : (i 2).val < 250 := (i 2).isLt
  have hN : cfg0.N = 16 := N_0
  let t : Fin cfg0.N := ⟨(i 0).val / 16, by rw [hN]; omega⟩
  obtain ⟨-, -, -, e90, e91, e92, -⟩ := idx_facts t
  have e90' : win0_9.index t (0 : Fin 3) = (i 0).val / 16 := e90
  refine ⟨t, flush0_9 t, ?_⟩
  rw [mem_blk]
  intro a
  match a with
  | ⟨0, _⟩ => show win0_9.index t (0 : Fin 3) * 16 ≤ (i 0).val ∧ (i 0).val < win0_9.index t (0 : Fin 3) * 16 + 16; omega
  | ⟨1, _⟩ => show win0_9.index t (1 : Fin 3) * 512 ≤ (i 1).val ∧ (i 1).val < win0_9.index t (1 : Fin 3) * 512 + 512; omega
  | ⟨2, _⟩ => show win0_9.index t (2 : Fin 3) * 250 ≤ (i 2).val ∧ (i 2).val < win0_9.index t (2 : Fin 3) * 250 + 250; omega

/-- The output array after the run. -/
theorem final (c : Dev nD) : (dats m 0 c).arrAt 9 cfg0.N
    = rows (V m c main_v0) (V m c main_arg1) (V m c main_arg2) (V m c main_arg3) (V m c main_arg4) (V m c main_arg5)
        (V m c main_arg6) (V m c main_arg7) (V m c main_arg8) :=
  (dats m 0 c).arrAt_eq_of_cover 9 _ (fun t _ => flushed_eq m c t) cover

end Cert.KernelIdeal.RowValue

end
-- ==== Proof.Whole.lean ====
/-
  The result array [256,512,1,250] as one function of the nine argument arrays: batch row `b` of `x`, read as 512
  pipelines by 250 time steps, scaled by its own weights (Spec.lean).
-/
import proofs.«163309_j13271448944756_2_alg».proof.Proof.Spec

noncomputable section

namespace Cert.Gate

open Idealize.ShloMosaic Idealize.ShloMosaic.ValueIdx

/-- The shape of `x` and of the result. -/
abbrev SX : Shape := ⟨4, ![256, 512, 1, 250]⟩

/-- Entry `(b, p, 0, t)` of the result is row `b`'s entry `(p, t)` times the weight of time step `t` of that row. -/
def whole (x : SX.Idx → EReal) (w1 : SW1.Idx → EReal) (b1 : SB1.Idx → EReal) (w2 : SW2.Idx → EReal) (b2 : SB2.Idx → EReal)
    (u1 : SU1.Idx → EReal) (c1 : SC1.Idx → EReal) (u2 : SU2.Idx → EReal) (c2 : SC2.Idx → EReal) : SX.Idx → EReal :=
  fun i => scaled (fun p t => x (ix4 (i 0) p (0 : Fin 1) t)) w1 b1 w2 b2 u1 c1 u2 c2 (i 1) (i 3)

end Cert.Gate

end
-- ==== Proof.KerRun.lean ====
/-
  The idealized kernel's run, read: @main casts x from [256,512,1,250] to [256,512,250] before the launch (the unit
  axis dropped: entry (b, p, t) is x at (b, p, 0, t)), the launch fills the [256,512,250] output with `rows` of that
  and the parameters, and the one line after the launch puts the unit axis back (entry (b, p, 0, t) is the output at
  (b, p, t)). So the result is `Cert.Gate.whole` of the nine argument arrays, which end unchanged.
-/
import proofs.«163309_j13271448944756_2_alg».proof.Proof.KerArray
import proofs.«163309_j13271448944756_2_alg».proof.Proof.Whole
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.RowValue
open Cert.KernelIdeal Cert.KernelIdeal.Gen

variable (m : (ℓ : Loc nD τ sig) → Buf (Elt Ideal) ℓ) (ρ : Dev nD → PrngReg)

/-- The launch finds its input array at the cast of `x`: the one host line before it. -/
theorem V_main_v0 (c : Dev nD) :
    (V m c main_v0 : S256x512x250.Idx → EReal)
      = shapeCast S256x512x250 (m ((c : Thread nD τ).loc main_arg0)) shapeCasts_S256x512x1x250_S256x512x250 := by
  show StableHlo.after hostOps0 (fun b => m (c, b)) (Proc.devRef .tc main_v0) = _
  after_results
  rfl

/-- The result buffer after the one host line that follows the launch: the output array with its unit axis back. -/
theorem tail (c : Dev nD) :
    (Pipeline.afterTail₀ cfgs (dats m) 0 (V0 m) [hostOps1] c main_v2 : S256x512x1x250.Idx → EReal)
      = broadcastInDim S256x512x1x250 ![0, 1, 3] bcast_S256x512x250_S256x512x1x250_0_1_3
          (rows (V m c main_v0) (V m c main_arg1) (V m c main_arg2) (V m c main_arg3) (V m c main_arg4) (V m c main_arg5)
            (V m c main_arg6) (V m c main_arg7) (V m c main_arg8)) := by
  unfold Pipeline.afterTail₀
  show StableHlo.after hostOps1 _ (Proc.devRef .tc main_v2) = _
  after_results
  exact congrArg (broadcastInDim S256x512x1x250 ![0, 1, 3] bcast_S256x512x250_S256x512x1x250_0_1_3)
    ((Pipeline.withArrays_arr spec0 launch0.win.arr_inj c (V0 m c) (fun w => (dats m 0 c).arrAt w cfg0.N) 9).trans (final m c))

/-- Dropping the unit axis, taking `rows`, and putting the unit axis back is `whole`: (b, p, 0, t) and (b, p, t) have
    the same row-major position. -/
theorem bcast_rows (X : S256x512x1x250.Idx → EReal) (a1 : S2x50.Idx → EReal) (a2 : S2.Idx → EReal) (a3 : S50x2.Idx → EReal)
    (a4 : S50.Idx → EReal) (a5 : S1x25.Idx → EReal) (a6 : S1.Idx → EReal) (a7 : S25x1.Idx → EReal) (a8 : S25.Idx → EReal) :
    broadcastInDim S256x512x1x250 ![0, 1, 3] bcast_S256x512x250_S256x512x1x250_0_1_3
        (rows (shapeCast S256x512x250 X shapeCasts_S256x512x1x250_S256x512x250) a1 a2 a3 a4 a5 a6 a7 a8)
      = Cert.Gate.whole X a1 a2 a3 a4 a5 a6 a7 a8 := by
  funext i
  refine (broadcastInDim_apply _ bcast_S256x512x250_S256x512x1x250_0_1_3 _ i (ix3 (i 0) (i 1) (i 3)) (fun a => match a with
    | ⟨0, _⟩ => by show (i 0).val = if (256 : Nat) = 1 then 0 else (i 0).val; rw [if_neg (by decide)]
    | ⟨1, _⟩ => by show (i 1).val = if (512 : Nat) = 1 then 0 else (i 1).val; rw [if_neg (by decide)]
    | ⟨2, _⟩ => by show (i 3).val = if (250 : Nat) = 1 then 0 else (i 3).val; rw [if_neg (by decide)])).trans ?_
  unfold rows Cert.Gate.whole
  refine scaled_congr ?_ rfl rfl rfl rfl rfl rfl rfl rfl rfl rfl
  funext p t
  refine shapeCast_apply X shapeCasts_S256x512x1x250_S256x512x250 (ix3 (i 0) p t) (ix4 (i 0) p (0 : Fin 1) t) ?_
  rewrite [Shape.rowMajor_val_four, Shape.rowMajor_val_three]
  show (((i 0).val * 512 + p.val) * 1 + 0) * 250 + t.val = ((i 0).val * 512 + p.val) * 250 + t.val
  omega

/-- The result buffer as a function of the nine argument arrays. -/
theorem result (c : Dev nD) :
    (Pipeline.afterTail₀ cfgs (dats m) 0 (V0 m) [hostOps1] c main_v2 : S256x512x1x250.Idx → EReal)
      = Cert.Gate.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [tail, V_main_v0, V_main_arg1, V_main_arg2, V_main_arg3, V_main_arg4, V_main_arg5, V_main_arg6, V_main_arg7, V_main_arg8]
  exact bcast_rows _ _ _ _ _ _ _ _ _

/-- Every weakly fair execution of the idealized kernel's @main terminates with the result buffer at `whole` of the
    argument arrays and the argument arrays unchanged. -/
theorem run : θ_run defs (onTc (τ := τ) (main (F := Ideal))) ⟨m, fun _ => 0, ρ⟩ (fun r => ∀ c : Dev nD,
      r.2.mem ((c.tc : Thread nD τ).loc main_v2) = Cert.Gate.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v2 (Pipeline.mem_restRefs_of main_v2 (by decide) (by decide))).trans (result m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.RowValue

end
-- ==== Proof.RefPreGather.lean ====
/-
  The one gather of the reference program, read at an index.

  The reference takes the nine windows out of the [256,250] array of means with one stablehlo.gather along axis 1 by a
  [9,50,1] array of start indices: offset axis 0 (the slice is a whole column of 256 rows), collapsed axis 1 (slice
  size 1), start index map [1]. Entry (b, k, j) of the result is therefore row b of the operand at the start index
  idx[k, j, 0], read as a signed integer and clamped into [0, 250 - 1].
-/
import proofs.«163309_j13271448944756_2_alg».proof.Proof.Gen.ReferenceIdeal.Read

noncomputable section
open Idealize.ShloMosaic Idealize.ShloMosaic.ValueIdx

namespace Cert.RRow.Pre
open Cert.ReferenceIdeal Cert.ReferenceIdeal.Read
section Gather
variable {α : Type}

/-- The gather of a [256,250] array along axis 1 by a [9,50,1] array of start indices, read at (b, k, j): row b of the
    operand at the start index idx[k, j, 0], read signed and clamped into [0, 249]. Axis 0 is the offset axis (the whole
    column of 256 rows is the slice, so its start is 0 and the offset coordinate is b); axis 1 is collapsed (slice size 1)
    and is the one axis the start index names. -/
theorem gather_row_apply (x : S256x250.Idx → α) (idx : IVec S9x50x1 32) (b : Fin 256) (k : Fin 9) (j : Fin 50) :
    Host.gather gather_S256x250_S9x50x1_S256x9x50_0_1_n_n_1_2_2561 x idx (ix3 b k j)
      = x (ix2 b ⟨min (idx (ix3 k j (0 : Fin 1))).toInt.toNat 249, by omega⟩) := by
  unfold Host.gather
  congr 1
  funext a
  refine Fin.ext ?_
  match a with
  | ⟨0, _⟩ =>
    show gather_S256x250_S9x50x1_S256x9x50_0_1_n_n_1_2_2561.start (ix3 b k j) idx 0 + gather_S256x250_S9x50x1_S256x9x50_0_1_n_n_1_2_2561.batchCoord (ix3 b k j) 0 + gather_S256x250_S9x50x1_S256x9x50_0_1_n_n_1_2_2561.offCoord (ix3 b k j) 0 = b.val
    have hs : gather_S256x250_S9x50x1_S256x9x50_0_1_n_n_1_2_2561.start (ix3 b k j) idx 0 = 0 := by
      unfold GatherDims.start
      rw [dif_neg (show ¬ (0 : Fin S256x250.rank) ∈ gather_S256x250_S9x50x1_S256x9x50_0_1_n_n_1_2_2561.startIndexMap by decide)]
    rw [hs, GatherDims.batchCoord_eq_zero gather_S256x250_S9x50x1_S256x9x50_0_1_n_n_1_2_2561 (ix3 b k j) 0 (by decide), Nat.zero_add]
    unfold GatherDims.offCoord
    rw [dif_pos (show (0 : Fin S256x250.rank) ∈ gather_S256x250_S9x50x1_S256x9x50_0_1_n_n_1_2_2561.sKept by decide)]
    rfl
  | ⟨1, _⟩ =>
    show gather_S256x250_S9x50x1_S256x9x50_0_1_n_n_1_2_2561.start (ix3 b k j) idx 1 + gather_S256x250_S9x50x1_S256x9x50_0_1_n_n_1_2_2561.batchCoord (ix3 b k j) 1 + gather_S256x250_S9x50x1_S256x9x50_0_1_n_n_1_2_2561.offCoord (ix3 b k j) 1
      = min (idx (ix3 k j (0 : Fin 1))).toInt.toNat 249
    rw [GatherDims.batchCoord_eq_zero gather_S256x250_S9x50x1_S256x9x50_0_1_n_n_1_2_2561 (ix3 b k j) 1 (by decide),
      GatherDims.offCoord_eq_zero gather_S256x250_S9x50x1_S256x9x50_0_1_n_n_1_2_2561 (ix3 b k j) 1 (by decide), Nat.add_zero]
    unfold GatherDims.start
    rw [dif_pos (show (1 : Fin S256x250.rank) ∈ gather_S256x250_S9x50x1_S256x9x50_0_1_n_n_1_2_2561.startIndexMap by decide)]
    have hsi : gather_S256x250_S9x50x1_S256x9x50_0_1_n_n_1_2_2561.siIdx (ix3 b k j) ⟨List.idxOf (1 : Fin S256x250.rank) gather_S256x250_S9x50x1_S256x9x50_0_1_n_n_1_2_2561.startIndexMap,
        List.idxOf_lt_length_iff.2 (show (1 : Fin S256x250.rank) ∈ gather_S256x250_S9x50x1_S256x9x50_0_1_n_n_1_2_2561.startIndexMap by decide)⟩ = ix3 k j (0 : Fin 1) := by
      funext c; refine Fin.ext ?_
      match c with
      | ⟨0, _⟩ => rfl
      | ⟨1, _⟩ => rfl
      | ⟨2, _⟩ => rfl
    rw [hsi]
    rfl
end Gather

end Cert.RRow.Pre
end
-- ==== Proof.RefPreIndex.lean ====
/-
  The start indices of the reference's gather, computed.

  The index array is integer arithmetic on 32-bit words: iota(9) * 25 broadcast along the columns plus iota(50)
  broadcast along the rows, so its entry (k, j) is the word of 25k + j. That number is at most 8 * 25 + 49 = 249, so as a
  signed integer it is itself: it is not negative, the negative-index wrap select(idx < 0, idx + 250, idx) keeps it, and
  it is already inside [0, 249].
-/
import proofs.«163309_j13271448944756_2_alg».proof.Proof.Gen.ReferenceIdeal.Read

noncomputable section
open Idealize.ShloMosaic Idealize.ShloMosaic.ValueIdx

namespace Cert.RRow.Pre
open Cert.ReferenceIdeal Cert.ReferenceIdeal.Read
section Index

/-- A natural number below 250, as a 32-bit word read signed, is itself. -/
theorem toInt_word (n : Nat) (hn : n < 250) : (BitVec.ofNat 32 n).toInt = (n : Int) := by
  rw [BitVec.toInt_eq_toNat_of_lt (by rw [BitVec.toNat_ofNat]; omega), BitVec.toNat_ofNat]
  omega

/-- Such a word is not negative: the signed comparison with the zero word is false. -/
theorem slt_zero_word (n : Nat) (hn : n < 250) : IntOp.cmpi .slt (BitVec.ofNat 32 n) 0#32 = 0#1 := by
  unfold IntOp.cmpi
  show BitVec.ofBool ((BitVec.ofNat 32 n).slt 0#32) = 0#1
  have h : (BitVec.ofNat 32 n).slt 0#32 = false := by
    rw [BitVec.slt, toInt_word n hn]
    simp
  rw [h]; rfl

variable {F : FTy → Type} [FloatOps F]

/-- The window index before the wrap, at (k, j): the word of 25k + j (iota(9) * 25 + iota(50), both broadcast). -/
theorem v12_apply (k : Fin 9) (j : Fin 50) :
    val_main_v12 (F := F) (ix2 k j) = BitVec.ofNat 32 (25 * k.val + j.val) := by
  rw [val_main_v12_apply, val_main_v10_apply, val_main_v11_apply, val_main_v7_apply, val_main_v9_apply,
    val_main_v5_apply, val_main_v6_apply, val_main_v4_apply, val_main_v8_apply, val_main_c_apply]
  show IntOp.addi (IntOp.muli (BitVec.ofNat 32 k.val) 25#32) (BitVec.ofNat 32 j.val) = _
  unfold IntOp.addi IntOp.muli
  rw [Nat.mul_comm 25 k.val, BitVec.ofNat_add, BitVec.ofNat_mul]

/-- The start index of entry j of window k, after the negative-index wrap and as a [9,50,1] array: still the word of
    25k + j, which is not negative. -/
theorem v18_apply (k : Fin 9) (j : Fin 50) :
    val_main_v18 (F := F) (ix3 k j (0 : Fin 1)) = BitVec.ofNat 32 (25 * k.val + j.val) := by
  have e : idx_main_v18 (ix3 k j (0 : Fin 1)) = ix2 k j := by
    funext a; match a with | ⟨0, _⟩ => rfl | ⟨1, _⟩ => rfl
  rw [val_main_v18_apply, e, val_main_v17_apply, val_main_v14_apply, val_main_v13_apply, val_main_c_1_apply, v12_apply,
    slt_zero_word _ (by have := k.isLt; have := j.isLt; omega)]
  exact Idealize.ShloMosaic.ValueIdx.select_zero _ _

end Index

end Cert.RRow.Pre
end
-- ==== Proof.RefPre.lean ====
/-
  The reference program's first half, read at an index: the mean over the pipelines (%3) and the first layer of the
  length-50 gate on each window, before clipping (%23), as the specification writes them.
-/
import proofs.«163309_j13271448944756_2_alg».proof.Proof.Spec
import proofs.«163309_j13271448944756_2_alg».proof.Proof.Gen.ReferenceIdeal.Read
import proofs.«163309_j13271448944756_2_alg».proof.Proof.RefPreGather
import proofs.«163309_j13271448944756_2_alg».proof.Proof.RefPreIndex
import Idealize.ShloMosaic.Lib.IdealHost

noncomputable section
open Idealize.ShloMosaic Idealize.ShloMosaic.ValueIdx

namespace Cert.RRow.Pre
open Cert.ReferenceIdeal Cert.ReferenceIdeal.Read

/-- The reshape [256,512,1,250] → [256,512,250] composed with the reduction's index map reads entry (b, p, 0, t). -/
theorem idx_v0_v1 (b : Fin 256) (t : Fin 250) (p : Fin 512) :
    idx_main_v0 (idx_main_v1 (ix2 b t) p) = ix4 b p (0 : Fin 1) t := by
  have hb := b.isLt; have hp := p.isLt; have ht := t.isLt
  funext a
  refine Fin.ext ?_
  match a with
  | ⟨0, _⟩ => show ((b.val * 512 + p.val) * 250 + t.val) / 128000 = b.val; omega
  | ⟨1, _⟩ => show ((b.val * 512 + p.val) * 250 + t.val) / 250 % 512 = p.val; omega
  | ⟨2, _⟩ => rfl
  | ⟨3, _⟩ => show ((b.val * 512 + p.val) * 250 + t.val) % 250 = t.val; omega

/-- The gathered windows at (b, k, j): the mean at (b, 25k + j). The start index is the word of 25k + j, which read
    signed is 25k + j ≤ 249, so the clamp into [0, 249] keeps it. -/
theorem v19_apply (x0 : (⟨S256x512x1x250, .f32⟩ : BufTy).Contents (Elt Ideal)) (b : Fin 256) (k : Fin 9) (j : Fin 50) :
    val_main_v19 (F := Ideal) x0 (ix3 b k j) = val_main_v3 (F := Ideal) x0 (ix2 b (Cert.Gate.winIdx k j)) := by
  have hk := k.isLt; have hj := j.isLt
  unfold val_main_v19
  refine (gather_row_apply (val_main_v3 (F := Ideal) x0) (val_main_v18 (F := Ideal)) b k j).trans ?_
  refine congrArg (fun t => val_main_v3 (F := Ideal) x0 (ix2 b t)) (Fin.ext ?_)
  show min (val_main_v18 (F := Ideal) (ix3 k j (0 : Fin 1))).toInt.toNat 249 = 25 * k.val + j.val
  rw [v18_apply, toInt_word _ (by omega)]
  omega

end Cert.RRow.Pre

namespace Cert.RRow
open Cert.ReferenceIdeal Cert.ReferenceIdeal.Read

/-- The mean over the 512 pipelines: the reduction starts from the zero word, which is 0, and the sum is divided by the
    word of 512.0, kept as a word. -/
theorem v3_apply (x0 : (⟨S256x512x1x250, .f32⟩ : BufTy).Contents (Elt Ideal)) (b : Fin 256) (t : Fin 250) :
    val_main_v3 (F := Ideal) x0 (ix2 b t) = Cert.Gate.mean (fun p t' => x0 (ix4 b p (0 : Fin 1) t')) t := by
  rw [val_main_v3_apply, val_main_v1_apply, val_main_v2_apply, val_main_cst_0_apply, val_main_cst_apply]
  unfold Cert.Gate.mean
  show Ideal.div (Ideal.ofBits .f32 0x00000000#32 + ∑ k : Fin 512, val_main_v0 (F := Ideal) x0 (idx_main_v1 (ix2 b t) k))
      (Ideal.ofBits .f32 0x44000000#32) = _
  rw [Ideal.ofBits_zero_f32, zero_add]
  refine congrArg (fun s => Ideal.div s Cert.Gate.c512) (Finset.sum_congr rfl fun p _ => ?_)
  rw [val_main_v0_apply, Pre.idx_v0_v1]

/-- The first layer on window k, before clipping: the 50 gathered means of the window against row r of the first weight
    matrix, plus entry r of the first bias. -/
theorem v23_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (b : Fin 256) (k : Fin 9) (r : Fin 2) :
    val_main_v23 (F := Ideal) x0 x1 x2 (ix3 b k r)
      = Cert.Gate.pre50 (fun t' => val_main_v3 (F := Ideal) x0 (ix2 b t')) x1 x2 k r := by
  have el : ∀ j : Fin 50, lidx_main_v20 (ix3 b k r) j = ix3 b k j := fun j => funext fun a =>
    match a with | ⟨0, _⟩ => rfl | ⟨1, _⟩ => rfl | ⟨2, _⟩ => rfl
  have er : ∀ j : Fin 50, ridx_main_v20 (ix3 b k r) j = ix2 r j := fun j => funext fun a =>
    match a with | ⟨0, _⟩ => rfl | ⟨1, _⟩ => rfl
  have eb : idx_main_v21 (idx_main_v22 (ix3 b k r)) = ix1 r := funext fun a =>
    match a with | ⟨0, _⟩ => rfl
  rw [val_main_v23_apply, val_main_v20_apply, val_main_v22_apply, val_main_v21_apply, eb]
  unfold Cert.Gate.pre50
  show (∑ j : Fin 50, val_main_v19 (F := Ideal) x0 (lidx_main_v20 (ix3 b k r) j) * x1 (ridx_main_v20 (ix3 b k r) j))
      + x2 (ix1 r) = _
  refine congrArg (fun s => s + x2 (ix1 r)) (Finset.sum_congr rfl fun j _ => ?_)
  rw [el, er, Pre.v19_apply]

end Cert.RRow
end
-- ==== Proof.RefGateA.lean ====
/-
  The reference's length-50 gate read at an index: from the first layer before clipping (taken as given), clip below at
  zero, contract the two hidden units against the second weight matrix, add the bias, and apply one over one plus the
  exponential of the negation — the logistic function.
-/
import proofs.«163309_j13271448944756_2_alg».proof.Proof.Spec
import proofs.«163309_j13271448944756_2_alg».proof.Proof.Gen.ReferenceIdeal.Read
import Idealize.ShloMosaic.Lib.IdealHost

noncomputable section
open Idealize.ShloMosaic Idealize.ShloMosaic.ValueIdx

namespace Cert.RRow
open Cert.ReferenceIdeal Cert.ReferenceIdeal.Read

/-- The second layer of the length-50 gate before the logistic function: the clipped hidden units against the
    second weight matrix, plus the bias. -/
theorem v28_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (k : Fin 9) (j : Fin 50) :
    val_main_v28 (F := Ideal) x0 x1 x2 x3 x4 (ix3 b k j)
      = (∑ r : Fin 2, max (val_main_v23 (F := Ideal) x0 x1 x2 (ix3 b k r)) 0 * x3 (ix2 j r)) + x4 (ix1 j) := by
  have el : ∀ r : Fin 2, lidx_main_v25 (ix3 b k j) r = ix3 b k r := fun r =>
    funext fun a => Fin.ext (by match a with | ⟨0, _⟩ => rfl | ⟨1, _⟩ => rfl | ⟨2, _⟩ => rfl)
  have er : ∀ r : Fin 2, ridx_main_v25 (ix3 b k j) r = ix2 j r := fun r =>
    funext fun a => Fin.ext (by match a with | ⟨0, _⟩ => rfl | ⟨1, _⟩ => rfl)
  have eb : idx_main_v26 (idx_main_v27 (ix3 b k j)) = ix1 j :=
    funext fun a => Fin.ext (by match a with | ⟨0, _⟩ => rfl)
  rw [val_main_v28_apply, val_main_v25_apply, val_main_v27_apply, val_main_v26_apply, eb]
  simp only [el, er, val_main_v24_apply, val_main_call0_v0_apply, val_main_call0_cst_apply, Ideal.ofBits_def,
    Ideal.ofBits_zero_f32, Ideal.maximumf_def, Ideal.addf_def]

/-- The length-50 gate: one over one plus the exponential of minus the second layer, which is the logistic function. -/
theorem v34_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (k : Fin 9) (j : Fin 50) :
    val_main_v34 (F := Ideal) x0 x1 x2 x3 x4 (ix3 b k j)
      = Cert.Gate.gate50 (fun k r => val_main_v23 (F := Ideal) x0 x1 x2 (ix3 b k r)) x3 x4 k j := by
  rw [val_main_v34_apply, val_main_v33_apply, val_main_cst_4_apply, val_main_v32_apply, val_main_v31_apply,
    val_main_cst_3_apply, val_main_v30_apply, val_main_v29_apply, v28_apply]
  simp only [Ideal.ofBits_def, Ideal.ofBits_one_f32, Ideal.hostDivf_def, Ideal.addf_def, Ideal.hostUnary_exp_def,
    Ideal.hostNegf_def, Ideal.negf_def]
  rfl

end Cert.RRow
end
-- ==== Proof.RefGateB.lean ====
/-
  The reference's trailing gate (length 25, one hidden unit) read at an index: the last 25 time steps of the mean (taken
  as given) against the first weight row plus the bias, clipped below at zero, times the second weight column (a sum over
  the single hidden unit) plus the bias, then one over one plus the exponential of the negation — the logistic function.
-/
import proofs.«163309_j13271448944756_2_alg».proof.Proof.Spec
import proofs.«163309_j13271448944756_2_alg».proof.Proof.Gen.ReferenceIdeal.Read
import Idealize.ShloMosaic.Lib.IdealHost

noncomputable section
open Idealize.ShloMosaic Idealize.ShloMosaic.ValueIdx

namespace Cert.RRow
open Cert.ReferenceIdeal Cert.ReferenceIdeal.Read

/-- The one hidden unit of the trailing window before clipping: the last 25 time steps of the mean against the first
    weight row, plus the bias. -/
theorem v39_apply (x0 : (⟨S256x512x1x250, .f32⟩ : BufTy).Contents (Elt Ideal)) (x5 : (⟨S1x25, .f32⟩ : BufTy).Contents (Elt Ideal))
    (x6 : (⟨S1, .f32⟩ : BufTy).Contents (Elt Ideal)) (b : Fin 256) (r : Fin 1) :
    val_main_v39 (F := Ideal) x0 x5 x6 (ix2 b r)
      = (∑ i : Fin 25, val_main_v3 (F := Ideal) x0 (ix2 b (Cert.Gate.tailIdx i)) * x5 (ix2 (0 : Fin 1) i))
          + x6 (ix1 (0 : Fin 1)) := by
  obtain rfl : r = 0 := Subsingleton.elim _ _
  have el : ∀ i : Fin 25, idx_main_v35 (lidx_main_v36 (ix2 b (0 : Fin 1)) i) = ix2 b (Cert.Gate.tailIdx i) := fun i =>
    funext fun a => Fin.ext (by match a with | ⟨0, _⟩ => rfl | ⟨1, _⟩ => rfl)
  have er : ∀ i : Fin 25, ridx_main_v36 (ix2 b (0 : Fin 1)) i = ix2 (0 : Fin 1) i := fun i =>
    funext fun a => Fin.ext (by match a with | ⟨0, _⟩ => rfl | ⟨1, _⟩ => rfl)
  have eb : idx_main_v37 (idx_main_v38 (ix2 b (0 : Fin 1))) = ix1 (0 : Fin 1) :=
    funext fun a => Fin.ext (by match a with | ⟨0, _⟩ => rfl)
  rw [val_main_v39_apply, val_main_v36_apply, val_main_v38_apply, val_main_v37_apply, eb]
  simp only [val_main_v35_apply, el, er, Ideal.addf_def]

/-- The second layer of the trailing gate before the logistic function: the clipped hidden unit against the second
    weight column (a sum over the one hidden unit), plus the bias. -/
theorem v44_apply (x0 : (⟨S256x512x1x250, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (j : Fin 25) :
    val_main_v44 (F := Ideal) x0 x5 x6 x7 x8 (ix2 b j)
      = (∑ r : Fin 1, max ((∑ i : Fin 25, val_main_v3 (F := Ideal) x0 (ix2 b (Cert.Gate.tailIdx i)) * x5 (ix2 (0 : Fin 1) i))
            + x6 (ix1 (0 : Fin 1))) 0 * x7 (ix2 j r)) + x8 (ix1 j) := by
  have el : ∀ r : Fin 1, lidx_main_v41 (ix2 b j) r = ix2 b r := fun r =>
    funext fun a => Fin.ext (by match a with | ⟨0, _⟩ => rfl | ⟨1, _⟩ => rfl)
  have er : ∀ r : Fin 1, ridx_main_v41 (ix2 b j) r = ix2 j r := fun r =>
    funext fun a => Fin.ext (by match a with | ⟨0, _⟩ => rfl | ⟨1, _⟩ => rfl)
  have eb : idx_main_v42 (idx_main_v43 (ix2 b j)) = ix1 j :=
    funext fun a => Fin.ext (by match a with | ⟨0, _⟩ => rfl)
  rw [val_main_v44_apply, val_main_v41_apply, val_main_v43_apply, val_main_v42_apply, eb]
  simp only [el, er, val_main_v40_apply, v39_apply, val_main_call1_v0_apply, val_main_call1_cst_apply, Ideal.ofBits_def,
    Ideal.ofBits_zero_f32, Ideal.maximumf_def, Ideal.addf_def]

/-- The trailing gate: one over one plus the exponential of minus the second layer, which is the logistic function. -/
theorem v50_apply (x0 : (⟨S256x512x1x250, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (j : Fin 25) :
    val_main_v50 (F := Ideal) x0 x5 x6 x7 x8 (ix2 b j)
      = Cert.Gate.gate25 (fun t' => val_main_v3 (F := Ideal) x0 (ix2 b t')) x5 x6 x7 x8 j := by
  rw [val_main_v50_apply, val_main_v49_apply, val_main_cst_6_apply, val_main_v48_apply, val_main_v47_apply,
    val_main_cst_5_apply, val_main_v46_apply, val_main_v45_apply, v44_apply]
  simp only [Ideal.ofBits_def, Ideal.ofBits_one_f32, Ideal.hostDivf_def, Ideal.addf_def, Ideal.hostUnary_exp_def,
    Ideal.hostNegf_def, Ideal.negf_def]
  rfl

end Cert.RRow
end
-- ==== Proof.RefGateC.lean ====
/-
  The pieces of the reference's overlap-add read at an index: the two halves of every window of the length-50 gate, the
  first half of window 0, the halved sums of neighbouring halves, and the halved sum of the last second half with the
  trailing gate.
-/
import proofs.«163309_j13271448944756_2_alg».proof.Proof.RefGateA
import proofs.«163309_j13271448944756_2_alg».proof.Proof.RefGateB

noncomputable section
open Idealize.ShloMosaic Idealize.ShloMosaic.ValueIdx

namespace Cert.RRow
open Cert.ReferenceIdeal Cert.ReferenceIdeal.Read

/-- The first half of window `k` of the length-50 gate. -/
theorem v51_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (k : Fin 9) (j : Fin 25) :
    val_main_v51 (F := Ideal) x0 x1 x2 x3 x4 (ix3 b k j)
      = (Cert.Gate.gate50 (fun k r => val_main_v23 (F := Ideal) x0 x1 x2 (ix3 b k r)) x3 x4) k ⟨j.val, by omega⟩ := by
  have e : idx_main_v51 (ix3 b k j) = ix3 b k (⟨j.val, by omega⟩ : Fin 50) :=
    funext fun a => Fin.ext (by match a with | ⟨0, _⟩ => rfl | ⟨1, _⟩ => rfl | ⟨2, _⟩ => rfl)
  rw [val_main_v51_apply, e, v34_apply]

/-- The second half of window `k` of the length-50 gate. -/
theorem v52_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (k : Fin 9) (j : Fin 25) :
    val_main_v52 (F := Ideal) x0 x1 x2 x3 x4 (ix3 b k j)
      = (Cert.Gate.gate50 (fun k r => val_main_v23 (F := Ideal) x0 x1 x2 (ix3 b k r)) x3 x4) k ⟨25 + j.val, by omega⟩ := by
  have e : idx_main_v52 (ix3 b k j) = ix3 b k (⟨25 + j.val, by omega⟩ : Fin 50) :=
    funext fun a => Fin.ext (by match a with | ⟨0, _⟩ => rfl | ⟨1, _⟩ => rfl | ⟨2, _⟩ => rfl)
  rw [val_main_v52_apply, e, v34_apply]

/-- The first piece of the overlap-add: the first half of window 0. -/
theorem v64_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (z : Fin 1) (j : Fin 25) :
    val_main_v64 (F := Ideal) x0 x1 x2 x3 x4 (ix3 b z j)
      = (Cert.Gate.gate50 (fun k r => val_main_v23 (F := Ideal) x0 x1 x2 (ix3 b k r)) x3 x4) ⟨0, by omega⟩ ⟨j.val, by omega⟩ := by
  obtain rfl : z = 0 := Subsingleton.elim _ _
  have e : idx_main_v64 (ix3 b (0 : Fin 1) j) = ix3 b (⟨0, by omega⟩ : Fin 9) j :=
    funext fun a => Fin.ext (by match a with | ⟨0, _⟩ => rfl | ⟨1, _⟩ => rfl | ⟨2, _⟩ => rfl)
  rw [val_main_v64_apply, e, v51_apply]

/-- The middle pieces: the second half of window `s` plus the first half of window `s + 1`, halved. -/
theorem v57_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (b : Fin 256) (s : Fin 8) (j : Fin 25) :
    val_main_v57 (F := Ideal) x0 x1 x2 x3 x4 (ix3 b s j)
      = ((Cert.Gate.gate50 (fun k r => val_main_v23 (F := Ideal) x0 x1 x2 (ix3 b k r)) x3 x4) ⟨s.val, by omega⟩ ⟨25 + j.val, by omega⟩
          + (Cert.Gate.gate50 (fun k r => val_main_v23 (F := Ideal) x0 x1 x2 (ix3 b k r)) x3 x4) ⟨1 + s.val, by omega⟩ ⟨j.val, by omega⟩) * Cert.Gate.half := by
  have e3 : idx_main_v53 (ix3 b s j) = ix3 b (⟨s.val, by omega⟩ : Fin 9) j :=
    funext fun a => Fin.ext (by match a with | ⟨0, _⟩ => rfl | ⟨1, _⟩ => rfl | ⟨2, _⟩ => rfl)
  have e4 : idx_main_v54 (ix3 b s j) = ix3 b (⟨1 + s.val, by omega⟩ : Fin 9) j :=
    funext fun a => Fin.ext (by match a with | ⟨0, _⟩ => rfl | ⟨1, _⟩ => rfl | ⟨2, _⟩ => rfl)
  rw [val_main_v57_apply, val_main_v55_apply, val_main_v53_apply, val_main_v54_apply, e3, e4, v52_apply, v51_apply,
    val_main_v56_apply, val_main_cst_7_apply]
  rfl

/-- The last piece: the second half of window 8 plus the trailing gate, halved. -/
theorem v63_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (z : Fin 1) (j : Fin 25) :
    val_main_v63 (F := Ideal) x0 x1 x2 x3 x4 x5 x6 x7 x8 (ix3 b z j)
      = ((Cert.Gate.gate50 (fun k r => val_main_v23 (F := Ideal) x0 x1 x2 (ix3 b k r)) x3 x4) ⟨8, by omega⟩ ⟨25 + j.val, by omega⟩
          + (Cert.Gate.gate25 (fun t' => val_main_v3 (F := Ideal) x0 (ix2 b t')) x5 x6 x7 x8) j) * Cert.Gate.half := by
  obtain rfl : z = 0 := Subsingleton.elim _ _
  have e3 : idx_main_v63 (ix3 b (0 : Fin 1) j) = ix2 b j :=
    funext fun a => Fin.ext (by match a with | ⟨0, _⟩ => rfl | ⟨1, _⟩ => rfl)
  have e9 : idx_main_v59 (ix2 b j) = ix3 b (0 : Fin 1) j :=
    funext fun a => Fin.ext (by
      have hb := b.isLt; have hj := j.isLt
      match a with
      | ⟨0, _⟩ => show (b.val * 25 + j.val) / 25 = b.val; omega
      | ⟨1, _⟩ => rfl
      | ⟨2, _⟩ => show (b.val * 25 + j.val) % 25 = j.val; omega)
  have e8 : idx_main_v58 (ix3 b (0 : Fin 1) j) = ix3 b (⟨8, by omega⟩ : Fin 9) j :=
    funext fun a => Fin.ext (by match a with | ⟨0, _⟩ => rfl | ⟨1, _⟩ => rfl | ⟨2, _⟩ => rfl)
  rw [val_main_v63_apply, e3, val_main_v62_apply, val_main_v60_apply, val_main_v59_apply, e9, val_main_v58_apply, e8,
    v52_apply, v50_apply, val_main_v61_apply, val_main_cst_8_apply]
  rfl

end Cert.RRow
end
-- ==== Proof.RefGateD.lean ====
/-
  The reference's concatenation of the three pieces along the segment axis, read at an index, is the overlap-add of the
  specification: which piece holds segment `s` is decided by `s = 0`, `1 ≤ s ≤ 8`, `s = 9`.
-/
import proofs.«163309_j13271448944756_2_alg».proof.Proof.RefGateC

noncomputable section
open Idealize.ShloMosaic Idealize.ShloMosaic.ValueIdx

namespace Cert.RRow
open Cert.ReferenceIdeal Cert.ReferenceIdeal.Read

/-- The concatenation of the three pieces along the segment axis is the overlap-add of the specification, segment by
    segment: segment 0 is the first piece, segments 1 to 8 the middle pieces, segment 9 the last piece. -/
theorem v65_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (s : Fin 10) (j : Fin 25) :
    val_main_v65 (F := Ideal) x0 x1 x2 x3 x4 x5 x6 x7 x8 (ix3 b s j)
      = Cert.Gate.seg (Cert.Gate.gate50 (fun k r => val_main_v23 (F := Ideal) x0 x1 x2 (ix3 b k r)) x3 x4)
          (Cert.Gate.gate25 (fun t' => val_main_v3 (F := Ideal) x0 (ix2 b t')) x5 x6 x7 x8) s j := by
  unfold val_main_v65 Cert.Gate.seg
  by_cases h0 : s.val = 0
  · rw [if_pos h0]
    refine (concatenate_apply_piece (1 : Fin S256x10x25.rank) _ _ (ix3 b s j) 0 (by show (0 : Nat) < 3; omega) S256x1x25
      (val_main_v64 (F := Ideal) x0 x1 x2 x3 x4) rfl rfl 0 rfl (ix3 b (0 : Fin 1) j) ?_ ?_).trans ?_
    · intro c hc
      match c with
      | ⟨0, _⟩ => rfl
      | ⟨1, _⟩ => exact absurd (Fin.ext rfl) hc
      | ⟨2, _⟩ => rfl
    · show 0 + 0 = s.val
      omega
    · exact v64_apply x0 x1 x2 x3 x4 b 0 j
  · rw [if_neg h0]
    by_cases h9 : s.val < 9
    · rw [dif_pos h9]
      refine (concatenate_apply_piece (1 : Fin S256x10x25.rank) _ _ (ix3 b s j) 1 (by show (1 : Nat) < 3; omega) S256x8x25
        (val_main_v57 (F := Ideal) x0 x1 x2 x3 x4) rfl rfl 1 rfl (ix3 b (⟨s.val - 1, by omega⟩ : Fin 8) j) ?_ ?_).trans ?_
      · intro c hc
        match c with
        | ⟨0, _⟩ => rfl
        | ⟨1, _⟩ => exact absurd (Fin.ext rfl) hc
        | ⟨2, _⟩ => rfl
      · show 1 + (s.val - 1) = s.val
        omega
      · refine (v57_apply x0 x1 x2 x3 x4 b ⟨s.val - 1, by omega⟩ j).trans ?_
        have e : (⟨1 + (s.val - 1), by omega⟩ : Fin 9) = ⟨s.val, h9⟩ := Fin.ext (show 1 + (s.val - 1) = s.val by omega)
        exact congrArg (fun q : Fin 9 =>
          ((Cert.Gate.gate50 (fun k r => val_main_v23 (F := Ideal) x0 x1 x2 (ix3 b k r)) x3 x4) ⟨s.val - 1, by omega⟩ ⟨25 + j.val, by omega⟩
            + (Cert.Gate.gate50 (fun k r => val_main_v23 (F := Ideal) x0 x1 x2 (ix3 b k r)) x3 x4) q ⟨j.val, by omega⟩) * Cert.Gate.half) e
    · rw [dif_neg h9]
      refine (concatenate_apply_piece (1 : Fin S256x10x25.rank) _ _ (ix3 b s j) 2 (by show (2 : Nat) < 3; omega) S256x1x25
        (val_main_v63 (F := Ideal) x0 x1 x2 x3 x4 x5 x6 x7 x8) rfl rfl 9 rfl (ix3 b (0 : Fin 1) j) ?_ ?_).trans ?_
      · intro c hc
        match c with
        | ⟨0, _⟩ => rfl
        | ⟨1, _⟩ => exact absurd (Fin.ext rfl) hc
        | ⟨2, _⟩ => rfl
      · show 9 + 0 = s.val
        have := s.isLt
        omega
      · exact v63_apply x0 x1 x2 x3 x4 x5 x6 x7 x8 b 0 j

end Cert.RRow
end
-- ==== Proof.RefGate.lean ====
/-
  The reference's result read at an index. The weights are reshaped from ten segments of 25 to 250 time steps (time step
  `t` is segment `t / 25` at `t % 25`), broadcast over the pipelines, and multiplied with the argument; with the two
  gates read as the specification's gates this is the argument times the specification's weight.
-/
import proofs.«163309_j13271448944756_2_alg».proof.Proof.RefGateD

noncomputable section
open Idealize.ShloMosaic Idealize.ShloMosaic.ValueIdx

namespace Cert.RRow
open Cert.ReferenceIdeal Cert.ReferenceIdeal.Read

/-- The weights flattened to 250 time steps: time step `t` is segment `t / 25` at `t % 25`. -/
theorem v66_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (t : Fin 250) :
    val_main_v66 (F := Ideal) x0 x1 x2 x3 x4 x5 x6 x7 x8 (ix2 b t)
      = Cert.Gate.weightOf (Cert.Gate.gate50 (fun k r => val_main_v23 (F := Ideal) x0 x1 x2 (ix3 b k r)) x3 x4)
          (Cert.Gate.gate25 (fun t' => val_main_v3 (F := Ideal) x0 (ix2 b t')) x5 x6 x7 x8) t := by
  have e : idx_main_v66 (ix2 b t) = ix3 b (⟨t.val / 25, by omega⟩ : Fin 10) (⟨t.val % 25, by omega⟩ : Fin 25) :=
    funext fun a => Fin.ext (by
      have hb := b.isLt; have ht := t.isLt
      match a with
      | ⟨0, _⟩ => show (b.val * 250 + t.val) / 250 = b.val; omega
      | ⟨1, _⟩ => show (b.val * 250 + t.val) / 25 % 10 = t.val / 25; omega
      | ⟨2, _⟩ => show (b.val * 250 + t.val) % 25 = t.val % 25; omega)
  rw [val_main_v66_apply, e, v65_apply]
  rfl

/-- The result: the argument times the weight of its time step, the same weight for every pipeline of the row. -/
theorem v70_apply (x0 : (⟨S256x512x1x250, .f32⟩ : BufTy).Contents (Elt Ideal)) (x1 : (⟨S2x50, .f32⟩ : BufTy).Contents (Elt Ideal))
    (x2 : (⟨S2, .f32⟩ : BufTy).Contents (Elt Ideal)) (x3 : (⟨S50x2, .f32⟩ : BufTy).Contents (Elt Ideal))
    (x4 : (⟨S50, .f32⟩ : BufTy).Contents (Elt Ideal)) (x5 : (⟨S1x25, .f32⟩ : BufTy).Contents (Elt Ideal))
    (x6 : (⟨S1, .f32⟩ : BufTy).Contents (Elt Ideal)) (x7 : (⟨S25x1, .f32⟩ : BufTy).Contents (Elt Ideal))
    (x8 : (⟨S25, .f32⟩ : BufTy).Contents (Elt Ideal)) (b : Fin 256) (p : Fin 512) (t : Fin 250) :
    val_main_v70 (F := Ideal) x0 x1 x2 x3 x4 x5 x6 x7 x8 (ix4 b p (0 : Fin 1) t)
      = x0 (ix4 b p (0 : Fin 1) t)
        * Cert.Gate.weightOf (Cert.Gate.gate50 (fun k r => val_main_v23 (F := Ideal) x0 x1 x2 (ix3 b k r)) x3 x4)
            (Cert.Gate.gate25 (fun t' => val_main_v3 (F := Ideal) x0 (ix2 b t')) x5 x6 x7 x8) t := by
  have e7 : idx_main_v67 (ix4 b p (0 : Fin 1) t) = ix3 b p t :=
    funext fun a => Fin.ext (by match a with | ⟨0, _⟩ => rfl | ⟨1, _⟩ => rfl | ⟨2, _⟩ => rfl)
  have e0 : idx_main_v0 (ix3 b p t) = ix4 b p (0 : Fin 1) t :=
    funext fun a => Fin.ext (by
      have hb := b.isLt; have hp := p.isLt; have ht := t.isLt
      match a with
      | ⟨0, _⟩ => show ((b.val * 512 + p.val) * 250 + t.val) / 128000 = b.val; omega
      | ⟨1, _⟩ => show ((b.val * 512 + p.val) * 250 + t.val) / 250 % 512 = p.val; omega
      | ⟨2, _⟩ => rfl
      | ⟨3, _⟩ => show ((b.val * 512 + p.val) * 250 + t.val) % 250 = t.val; omega)
  have e9 : idx_main_v68 (idx_main_v69 (ix4 b p (0 : Fin 1) t)) = ix2 b t :=
    funext fun a => Fin.ext (by match a with | ⟨0, _⟩ => rfl | ⟨1, _⟩ => rfl)
  rw [val_main_v70_apply, val_main_v67_apply, e7, val_main_v0_apply, e0, val_main_v69_apply, val_main_v68_apply, e9,
    v66_apply]
  rfl

end Cert.RRow
end
-- ==== Proof.RefRun.lean ====
/-
  The reference's result is `Cert.Gate.whole` of its nine argument arrays: its last operation, read at (b, p, 0, t), is
  x at (b, p, 0, t) times the overlap-added weight of time step t built from the row's two gates, the gates are built
  from the row's first layer and mean, and those are the specification's `pre50` and `mean` of row b.
-/
import proofs.«163309_j13271448944756_2_alg».proof.Proof.RefPre
import proofs.«163309_j13271448944756_2_alg».proof.Proof.RefGate
import proofs.«163309_j13271448944756_2_alg».proof.Proof.Whole
import proofs.«163309_j13271448944756_2_alg».proof.Proof.Gen.ReferenceIdeal.Read
import Idealize.ShloMosaic.Lib.ValueIdx

noncomputable section

open Idealize.ShloMosaic Idealize.ShloMosaic.ValueIdx

namespace Cert.RRow
open Cert.ReferenceIdeal Cert.ReferenceIdeal.Read

/-- The reference's last stage is `whole` of the arguments, entry by entry. -/
theorem ref_whole (x0 : (⟨S256x512x1x250, .f32⟩ : BufTy).Contents (Elt Ideal)) (x1 : (⟨S2x50, .f32⟩ : BufTy).Contents (Elt Ideal)) (x2 : (⟨S2, .f32⟩ : BufTy).Contents (Elt Ideal)) (x3 : (⟨S50x2, .f32⟩ : BufTy).Contents (Elt Ideal)) (x4 : (⟨S50, .f32⟩ : BufTy).Contents (Elt Ideal)) (x5 : (⟨S1x25, .f32⟩ : BufTy).Contents (Elt Ideal)) (x6 : (⟨S1, .f32⟩ : BufTy).Contents (Elt Ideal)) (x7 : (⟨S25x1, .f32⟩ : BufTy).Contents (Elt Ideal)) (x8 : (⟨S25, .f32⟩ : BufTy).Contents (Elt Ideal)) :
    val_main_v70 (F := Ideal) x0 x1 x2 x3 x4 x5 x6 x7 x8 = Cert.Gate.whole x0 x1 x2 x3 x4 x5 x6 x7 x8 := by
  funext i
  have h2 : (i 2).val = 0 := by have h : (i 2).val < 1 := (i 2).isLt; omega
  have hi : i = ix4 (i 0) (i 1) (0 : Fin 1) (i 3) :=
    (eq_ix4 i).trans (congrArg (fun z : Fin 1 => ix4 (i 0) (i 1) z (i 3)) (Fin.ext h2))
  refine (congrArg (val_main_v70 (F := Ideal) x0 x1 x2 x3 x4 x5 x6 x7 x8) hi).trans ?_
  refine (v70_apply x0 x1 x2 x3 x4 x5 x6 x7 x8 (i 0) (i 1) (i 3)).trans ?_
  have e3 : (fun t' => val_main_v3 (F := Ideal) x0 (ix2 (i 0) t'))
      = Cert.Gate.mean (fun p t' => x0 (ix4 (i 0) p (0 : Fin 1) t')) := funext fun t' => v3_apply x0 (i 0) t'
  have e23 : (fun k r => val_main_v23 (F := Ideal) x0 x1 x2 (ix3 (i 0) k r))
      = Cert.Gate.pre50 (fun t' => val_main_v3 (F := Ideal) x0 (ix2 (i 0) t')) x1 x2 :=
    funext fun k => funext fun r => v23_apply x0 x1 x2 (i 0) k r
  rw [e23, e3]
  rfl

end Cert.RRow

end
-- ==== Proof.lean ====
/-
  The certificate of a fused gate kernel against its jnp reference.

  Both programs take x : f32[256,512,1,250] (256 rows, 512 pipelines, 250 time steps) and eight parameter arrays, and
  return x scaled, row by row and time step by time step, by a weight computed from the row's own mean over the pipelines:
  nine windows of length 50 at stride 25 and a trailing window of length 25 each go through a two-layer gate (an affine
  map, a clip at zero, an affine map, the logistic function), and the gates of overlapping windows are averaged into
  250 weights (Proof/Spec.lean states this as ONE function, `Cert.Gate.whole`, in Proof/Whole.lean).

  The kernel computes it sixteen rows at a time over a grid of sixteen points, with broadcasts and lane sums where the
  reference has matrix products, static slices where the reference gathers, and one logistic operation where the
  reference spells 1 / (1 + exp(-z)); at the ideal instance each of these pairs is one function, in the same order of
  operations, so the two results agree on every extended real and the precondition is never opened.
  - frames: the two kernels' are the generated frames; the reference's is its generated run with the result dropped;
  - preserves: the idealization rewrote nothing, the conjunct is `True`;
  - algebraic: the idealized kernel ends at `whole` of its arguments (Proof/KerRun.lean, over Proof/KerArray.lean,
    Proof/KerRow.lean and the entry-by-entry readings of the body), the reference at `whole` of its own
    (Proof/RefRun.lean), and the arguments agree.
-/
import proofs.«163309_j13271448944756_2_alg».proof.Defs
import proofs.«163309_j13271448944756_2_alg».proof.Proof.Gen.Kernel
import proofs.«163309_j13271448944756_2_alg».proof.Proof.Gen.Kernel.Skeleton
import proofs.«163309_j13271448944756_2_alg».proof.Proof.Gen.Kernel.Launch
import proofs.«163309_j13271448944756_2_alg».proof.Proof.Gen.Kernel.Points
import proofs.«163309_j13271448944756_2_alg».proof.Proof.Gen.Kernel.Frame
import proofs.«163309_j13271448944756_2_alg».proof.Proof.Gen.KernelIdeal
import proofs.«163309_j13271448944756_2_alg».proof.Proof.Gen.KernelIdeal.Skeleton
import proofs.«163309_j13271448944756_2_alg».proof.Proof.Gen.KernelIdeal.Launch
import proofs.«163309_j13271448944756_2_alg».proof.Proof.Gen.KernelIdeal.Points
import proofs.«163309_j13271448944756_2_alg».proof.Proof.Gen.KernelIdeal.Frame
import proofs.«163309_j13271448944756_2_alg».proof.Proof.Gen.ReferenceIdeal
import proofs.«163309_j13271448944756_2_alg».proof.Proof.Gen.Pre_finite_inputs
import proofs.«163309_j13271448944756_2_alg».proof.Proof.Gen.ReferenceIdeal.Run
import proofs.«163309_j13271448944756_2_alg».proof.Proof.Gen.ReferenceIdeal.Read
import proofs.«163309_j13271448944756_2_alg».proof.Proof.KerRun
import proofs.«163309_j13271448944756_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at `whole` of their arguments, and the arguments agree. -/
theorem algebraic : Cert.algebraic_KernelIdeal_ReferenceIdeal := by
  intro m ρ m' ρ' _ hagree
  refine ⟨fun c => Cert.Gate.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.RRow.ref_whole, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
